-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v126)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v126) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x256x32 : Shape := ⟨4, ![16, 256, 256, 32]⟩
abbrev S16x256x256 : Shape := ⟨3, ![16, 256, 256]⟩
abbrev S_ : Shape := ⟨0, ![]⟩

class Facts : Prop where
  bcast_S_S16x256x256x32 : S_.BroadcastsInDim S16x256x256x32 (![] : Fin 0 → Fin S16x256x256x32.rank)
  reducesTo_S16x256x256x32_S_d0_1_2_3 : S16x256x256x32.ReducesTo [0, 1, 2, 3] S_
  h_S_ : 0 < S_.numel
  bcast_S_S16x256x256 : S_.BroadcastsInDim S16x256x256 (![] : Fin 0 → Fin S16x256x256.rank)
  reducesTo_S16x256x256_S_d0_1_2 : S16x256x256.ReducesTo [0, 1, 2] S_

variable [Facts]

def fn {F : FTy → Type} [FloatOps F] (main_arg0 : FVec F S16x256x256x32 .f32) (main_arg1 : FVec F S16x256x256 .f32) (main_arg2 : FVec F S16x256x256 .f32) : IVec S_ 1 :=
  let main_v0 : FVec F S16x256x256x32 .f32 := Host.absf main_arg0
  let main_cst : FVec F S_ .f32 := constant S_ .f32 0x7F800000#32
  let main_v1 : FVec F S16x256x256x32 .f32 := broadcastInDim S16x256x256x32 ![] bcast_S_S16x256x256x32 main_cst
  let main_v2 : IVec S16x256x256x32 1 := cmpf .olt main_v0 main_v1
  let main_c : IVec S_ 1 := constantI S_ 1 1#1
  let main_v3 : IVec S_ 1 := (fun x v => Host.reduce IntOp.andi x v reducesTo_S16x256x256x32_S_d0_1_2_3 h_S_) main_v2 main_c
  let main_v4 : FVec F S16x256x256 .f32 := Host.absf main_arg1
  let main_cst_0 : FVec F S_ .f32 := constant S_ .f32 0x7F800000#32
  let main_v5 : FVec F S16x256x256 .f32 := broadcastInDim S16x256x256 ![] bcast_S_S16x256x256 main_cst_0
  let main_v6 : IVec S16x256x256 1 := cmpf .olt main_v4 main_v5
  let main_c_1 : IVec S_ 1 := constantI S_ 1 1#1
  let main_v7 : IVec S_ 1 := (fun x v => Host.reduce IntOp.andi x v reducesTo_S16x256x256_S_d0_1_2 h_S_) main_v6 main_c_1
  let main_v8 : IVec S_ 1 := andi main_v3 main_v7
  let main_v9 : FVec F S16x256x256 .f32 := Host.absf main_arg2
  let main_cst_2 : FVec F S_ .f32 := constant S_ .f32 0x7F800000#32
  let main_v10 : FVec F S16x256x256 .f32 := broadcastInDim S16x256x256 ![] bcast_S_S16x256x256 main_cst_2
  let main_v11 : IVec S16x256x256 1 := cmpf .olt main_v9 main_v10
  let main_c_3 : IVec S_ 1 := constantI S_ 1 1#1
  let main_v12 : IVec S_ 1 := (fun x v => Host.reduce IntOp.andi x v reducesTo_S16x256x256_S_d0_1_2 h_S_) main_v11 main_c_3
  let main_v13 : IVec S_ 1 := andi main_v8 main_v12
  main_v13
-- ==== Kernel.lean ====
abbrev S16x256x256x32 : Shape := ⟨4, ![16, 256, 256, 32]⟩
abbrev S16x256x256 : Shape := ⟨3, ![16, 256, 256]⟩
abbrev S_ : Shape := ⟨0, ![]⟩
abbrev S16 : Shape := ⟨1, ![16]⟩
abbrev S16x1x1 : Shape := ⟨3, ![16, 1, 1]⟩
abbrev S16x256x256x1 : Shape := ⟨4, ![16, 256, 256, 1]⟩
abbrev S16x256x256x3 : Shape := ⟨4, ![16, 256, 256, 3]⟩
abbrev S1x16x256 : Shape := ⟨3, ![1, 16, 256]⟩
abbrev S1x16x256x32 : Shape := ⟨4, ![1, 16, 256, 32]⟩
abbrev S1x16x256x1 : Shape := ⟨4, ![1, 16, 256, 1]⟩

abbrev nBuf : Space → Nat
  | .hbm => 190
  | .vmem => 18
  | .smem => 0
  | _ => 0

abbrev hbmTy0_0 (i : Nat) : BufTy := match i % 128 with
  | 0 => ⟨S16x256x256x32, .f32⟩
  | 1 => ⟨S16x256x256, .f32⟩
  | 2 => ⟨S16x256x256, .f32⟩
  | 3 => ⟨S_, .f32⟩
  | 4 => ⟨S16x256x256, .f32⟩
  | 5 => ⟨S16x256x256, .f32⟩
  | 6 => ⟨S_, .f32⟩
  | 7 => ⟨S16x256x256, .f32⟩
  | 8 => ⟨S16x256x256, .f32⟩
  | 9 => ⟨S_, .f32⟩
  | 10 => ⟨S16x256x256, .f32⟩
  | 11 => ⟨S16x256x256, .f32⟩
  | 12 => ⟨S_, .f32⟩
  | 13 => ⟨S16x256x256, .f32⟩
  | 14 => ⟨S16x256x256, .f32⟩
  | 15 => ⟨S_, .f32⟩
  | 16 => ⟨S16x256x256, .f32⟩
  | 17 => ⟨S16x256x256, .f32⟩
  | 18 => ⟨S_, .f32⟩
  | 19 => ⟨S16x256x256, .f32⟩
  | 20 => ⟨S16x256x256, .f32⟩
  | 21 => ⟨S16x256x256, .f32⟩
  | 22 => ⟨S16x256x256, .i32⟩
  | 23 => ⟨S_, .i32⟩
  | 24 => ⟨S16x256x256, .i32⟩
  | 25 => ⟨S16x256x256, .i32⟩
  | 26 => ⟨S16x256x256, .f32⟩
  | 27 => ⟨S16x256x256, .i32⟩
  | 28 => ⟨S_, .i32⟩
  | 29 => ⟨S16x256x256, .i32⟩
  | 30 => ⟨S16x256x256, .i32⟩
  | 31 => ⟨S_, .i32⟩
  | 32 => ⟨S_, .i32⟩
  | 33 => ⟨S_, .i32⟩
  | 34 => ⟨S16x256x256, .i32⟩
  | 35 => ⟨S16x256x256, .i32⟩
  | 36 => ⟨S_, .i32⟩
  | 37 => ⟨S16x256x256, .i32⟩
  | 38 => ⟨S16x256x256, .i32⟩
  | 39 => ⟨S_, .i32⟩
  | 40 => ⟨S_, .i32⟩
  | 41 => ⟨S_, .i32⟩
  | 42 => ⟨S16x256x256, .i32⟩
  | 43 => ⟨S16x256x256, .i32⟩
  | 44 => ⟨S_, .i32⟩
  | 45 => ⟨S16x256x256, .i32⟩
  | 46 => ⟨S16x256x256, .i32⟩
  | 47 => ⟨S_, .i32⟩
  | 48 => ⟨S_, .i32⟩
  | 49 => ⟨S_, .i32⟩
  | 50 => ⟨S16x256x256, .i32⟩
  | 51 => ⟨S16x256x256, .i32⟩
  | 52 => ⟨S_, .i32⟩
  | 53 => ⟨S16x256x256, .i32⟩
  | 54 => ⟨S16x256x256, .i32⟩
  | 55 => ⟨S_, .i32⟩
  | 56 => ⟨S_, .i32⟩
  | 57 => ⟨S_, .i32⟩
  | 58 => ⟨S16x256x256, .i32⟩
  | 59 => ⟨S16x256x256, .i32⟩
  | 60 => ⟨S_, .i32⟩
  | 61 => ⟨S16x256x256, .i32⟩
  | 62 => ⟨S16x256x256, .i32⟩
  | 63 => ⟨S16, .i32⟩
  | 64 => ⟨S16x1x1, .i32⟩
  | 65 => ⟨S_, .i32⟩
  | 66 => ⟨S16x1x1, .i32⟩
  | 67 => ⟨S16x1x1, .i1⟩
  | 68 => ⟨S_, .i32⟩
  | 69 => ⟨S16x1x1, .i32⟩
  | 70 => ⟨S16x1x1, .i32⟩
  | 71 => ⟨S16x1x1, .i32⟩
  | 72 => ⟨S_, .i32⟩
  | 73 => ⟨S16x256x256, .i32⟩
  | 74 => ⟨S16x256x256, .i1⟩
  | 75 => ⟨S_, .i32⟩
  | 76 => ⟨S16x256x256, .i32⟩
  | 77 => ⟨S16x256x256, .i32⟩
  | 78 => ⟨S16x256x256, .i32⟩
  | 79 => ⟨S_, .i32⟩
  | 80 => ⟨S16x256x256, .i32⟩
  | 81 => ⟨S16x256x256, .i1⟩
  | 82 => ⟨S_, .i32⟩
  | 83 => ⟨S16x256x256, .i32⟩
  | 84 => ⟨S16x256x256, .i32⟩
  | 85 => ⟨S16x256x256, .i32⟩
  | 86 => ⟨S16x256x256, .i32⟩
  | 87 => ⟨S16x256x256x1, .i32⟩
  | 88 => ⟨S16x256x256x1, .i32⟩
  | 89 => ⟨S16x256x256x1, .i32⟩
  | 90 => ⟨S16x256x256x3, .i32⟩
  | 91 => ⟨S16x256x256x32, .f32⟩
  | 92 => ⟨S_, .i32⟩
  | 93 => ⟨S16x1x1, .i32⟩
  | 94 => ⟨S16x1x1, .i1⟩
  | 95 => ⟨S_, .i32⟩
  | 96 => ⟨S16x1x1, .i32⟩
  | 97 => ⟨S16x1x1, .i32⟩
  | 98 => ⟨S16x1x1, .i32⟩
  | 99 => ⟨S_, .i32⟩
  | 100 => ⟨S16x256x256, .i32⟩
  | 101 => ⟨S16x256x256, .i1⟩
  | 102 => ⟨S_, .i32⟩
  | 103 => ⟨S16x256x256, .i32⟩
  | 104 => ⟨S16x256x256, .i32⟩
  | 105 => ⟨S16x256x256, .i32⟩
  | 106 => ⟨S_, .i32⟩
  | 107 => ⟨S16x256x256, .i32⟩
  | 108 => ⟨S16x256x256, .i1⟩
  | 109 => ⟨S_, .i32⟩
  | 110 => ⟨S16x256x256, .i32⟩
  | 111 => ⟨S16x256x256, .i32⟩
  | 112 => ⟨S16x256x256, .i32⟩
  | 113 => ⟨S16x256x256, .i32⟩
  | 114 => ⟨S16x256x256x1, .i32⟩
  | 115 => ⟨S16x256x256x1, .i32⟩
  | 116 => ⟨S16x256x256x1, .i32⟩
  | 117 => ⟨S16x256x256x3, .i32⟩
  | 118 => ⟨S16x256x256x32, .f32⟩
  | 119 => ⟨S_, .i32⟩
  | 120 => ⟨S16x1x1, .i32⟩
  | 121 => ⟨S16x1x1, .i1⟩
  | 122 => ⟨S_, .i32⟩
  | 123 => ⟨S16x1x1, .i32⟩
  | 124 => ⟨S16x1x1, .i32⟩
  | 125 => ⟨S16x1x1, .i32⟩
  | 126 => ⟨S_, .i32⟩
  | 127 => ⟨S16x256x256, .i32⟩
  | _ => ⟨S16x256x256x32, .f32⟩

abbrev hbmTy0_1 (i : Nat) : BufTy := match i % 128 with
  | 0 => ⟨S16x256x256, .i1⟩
  | 1 => ⟨S_, .i32⟩
  | 2 => ⟨S16x256x256, .i32⟩
  | 3 => ⟨S16x256x256, .i32⟩
  | 4 => ⟨S16x256x256, .i32⟩
  | 5 => ⟨S_, .i32⟩
  | 6 => ⟨S16x256x256, .i32⟩
  | 7 => ⟨S16x256x256, .i1⟩
  | 8 => ⟨S_, .i32⟩
  | 9 => ⟨S16x256x256, .i32⟩
  | 10 => ⟨S16x256x256, .i32⟩
  | 11 => ⟨S16x256x256, .i32⟩
  | 12 => ⟨S16x256x256, .i32⟩
  | 13 => ⟨S16x256x256x1, .i32⟩
  | 14 => ⟨S16x256x256x1, .i32⟩
  | 15 => ⟨S16x256x256x1, .i32⟩
  | 16 => ⟨S16x256x256x3, .i32⟩
  | 17 => ⟨S16x256x256x32, .f32⟩
  | 18 => ⟨S_, .i32⟩
  | 19 => ⟨S16x1x1, .i32⟩
  | 20 => ⟨S16x1x1, .i1⟩
  | 21 => ⟨S_, .i32⟩
  | 22 => ⟨S16x1x1, .i32⟩
  | 23 => ⟨S16x1x1, .i32⟩
  | 24 => ⟨S16x1x1, .i32⟩
  | 25 => ⟨S_, .i32⟩
  | 26 => ⟨S16x256x256, .i32⟩
  | 27 => ⟨S16x256x256, .i1⟩
  | 28 => ⟨S_, .i32⟩
  | 29 => ⟨S16x256x256, .i32⟩
  | 30 => ⟨S16x256x256, .i32⟩
  | 31 => ⟨S16x256x256, .i32⟩
  | 32 => ⟨S_, .i32⟩
  | 33 => ⟨S16x256x256, .i32⟩
  | 34 => ⟨S16x256x256, .i1⟩
  | 35 => ⟨S_, .i32⟩
  | 36 => ⟨S16x256x256, .i32⟩
  | 37 => ⟨S16x256x256, .i32⟩
  | 38 => ⟨S16x256x256, .i32⟩
  | 39 => ⟨S16x256x256, .i32⟩
  | 40 => ⟨S16x256x256x1, .i32⟩
  | 41 => ⟨S16x256x256x1, .i32⟩
  | 42 => ⟨S16x256x256x1, .i32⟩
  | 43 => ⟨S16x256x256x3, .i32⟩
  | 44 => ⟨S16x256x256x32, .f32⟩
  | 45 => ⟨S16x256x256, .f32⟩
  | 46 => ⟨S16x256x256, .f32⟩
  | 47 => ⟨S16x256x256, .f32⟩
  | 48 => ⟨S16x256x256, .f32⟩
  | 49 => ⟨S16x256x256, .f32⟩
  | 50 => ⟨S16x256x256, .f32⟩
  | 51 => ⟨S16x256x256, .f32⟩
  | 52 => ⟨S16x256x256, .f32⟩
  | 53 => ⟨S16x256x256, .f32⟩
  | 54 => ⟨S16x256x256, .f32⟩
  | 55 => ⟨S16x256x256, .f32⟩
  | 56 => ⟨S16x256x256, .f32⟩
  | 57 => ⟨S16x256x256, .f32⟩
  | 58 => ⟨S16x256x256, .f32⟩
  | 59 => ⟨S16x256x256, .f32⟩
  | 60 => ⟨S16x256x256, .f32⟩
  | 61 => ⟨S16x256x256x32, .f32⟩
  | _ => ⟨S16x256x256x32, .f32⟩

abbrev hbmTy (i : Nat) : BufTy := match i / 128 with
  | 0 => hbmTy0_0 i
  | 1 => hbmTy0_1 i
  | _ => ⟨S16x256x256x32, .f32⟩

abbrev bufTy : (tb : Table) → Fin (tcTables nBuf tb) → BufTy
  | .hbm, ⟨i, _⟩ => hbmTy i
  | .local _ .vmem, ⟨0, _⟩ => ⟨S1x16x256, .f32⟩
  | .local _ .vmem, ⟨1, _⟩ => ⟨S1x16x256, .f32⟩
  | .local _ .vmem, ⟨2, _⟩ => ⟨S1x16x256, .f32⟩
  | .local _ .vmem, ⟨3, _⟩ => ⟨S1x16x256, .f32⟩
  | .local _ .vmem, ⟨4, _⟩ => ⟨S1x16x256, .f32⟩
  | .local _ .vmem, ⟨5, _⟩ => ⟨S1x16x256, .f32⟩
  | .local _ .vmem, ⟨6, _⟩ => ⟨S1x16x256, .f32⟩
  | .local _ .vmem, ⟨7, _⟩ => ⟨S1x16x256, .f32⟩
  | .local _ .vmem, ⟨8, _⟩ => ⟨S1x16x256x32, .f32⟩
  | .local _ .vmem, ⟨9, _⟩ => ⟨S1x16x256x32, .f32⟩
  | .local _ .vmem, ⟨10, _⟩ => ⟨S1x16x256x32, .f32⟩
  | .local _ .vmem, ⟨11, _⟩ => ⟨S1x16x256x32, .f32⟩
  | .local _ .vmem, ⟨12, _⟩ => ⟨S1x16x256x32, .f32⟩
  | .local _ .vmem, ⟨13, _⟩ => ⟨S1x16x256x32, .f32⟩
  | .local _ .vmem, ⟨14, _⟩ => ⟨S1x16x256x32, .f32⟩
  | .local _ .vmem, ⟨15, _⟩ => ⟨S1x16x256x32, .f32⟩
  | .local _ .vmem, ⟨16, _⟩ => ⟨S1x16x256x32, .f32⟩
  | .local _ .vmem, ⟨17, _⟩ => ⟨S1x16x256x32, .f32⟩
  | _, _ => ⟨S16x256x256x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_cst_3 : Ref sig .tc := ⟨.hbm, 15, rfl⟩
abbrev main_v8 : Ref sig .tc := ⟨.hbm, 16, rfl⟩
abbrev main_v9 : Ref sig .tc := ⟨.hbm, 17, rfl⟩
abbrev main_cst_4 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_5 : Ref sig .tc := ⟨.hbm, 28, rfl⟩
abbrev main_v18 : Ref sig .tc := ⟨.hbm, 29, rfl⟩
abbrev main_v19 : Ref sig .tc := ⟨.hbm, 30, rfl⟩
abbrev main_c_6 : Ref sig .tc := ⟨.hbm, 31, rfl⟩
abbrev main_c_7 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v20 : Ref sig .tc := ⟨.hbm, 38, rfl⟩
abbrev main_c_8 : Ref sig .tc := ⟨.hbm, 39, rfl⟩
abbrev main_c_9 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_v21 : Ref sig .tc := ⟨.hbm, 46, rfl⟩
abbrev main_c_10 : Ref sig .tc := ⟨.hbm, 47, rfl⟩
abbrev main_c_11 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_v22 : Ref sig .tc := ⟨.hbm, 54, rfl⟩
abbrev main_c_12 : Ref sig .tc := ⟨.hbm, 55, rfl⟩
abbrev main_c_13 : Ref sig .tc := ⟨.hbm, 56, rfl⟩
abbrev main_call3_v0 : Ref sig .tc := ⟨.hbm, 57, rfl⟩
abbrev main_call3_v1 : Ref sig .tc := ⟨.hbm, 58, rfl⟩
abbrev main_call3_v2 : Ref sig .tc := ⟨.hbm, 59, rfl⟩
abbrev main_call3_v3 : Ref sig .tc := ⟨.hbm, 60, rfl⟩
abbrev main_call3_v4 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_c_14 : Ref sig .tc := ⟨.hbm, 65, rfl⟩
abbrev main_v26 : Ref sig .tc := ⟨.hbm, 66, rfl⟩
abbrev main_v27 : Ref sig .tc := ⟨.hbm, 67, rfl⟩
abbrev main_c_15 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_c_16 : Ref sig .tc := ⟨.hbm, 72, rfl⟩
abbrev main_v31 : Ref sig .tc := ⟨.hbm, 73, rfl⟩
abbrev main_v32 : Ref sig .tc := ⟨.hbm, 74, rfl⟩
abbrev main_c_17 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_c_18 : Ref sig .tc := ⟨.hbm, 79, rfl⟩
abbrev main_v36 : Ref sig .tc := ⟨.hbm, 80, rfl⟩
abbrev main_v37 : Ref sig .tc := ⟨.hbm, 81, rfl⟩
abbrev main_c_19 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_c_20 : Ref sig .tc := ⟨.hbm, 92, rfl⟩
abbrev main_v47 : Ref sig .tc := ⟨.hbm, 93, rfl⟩
abbrev main_v48 : Ref sig .tc := ⟨.hbm, 94, rfl⟩
abbrev main_c_21 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_c_22 : Ref sig .tc := ⟨.hbm, 99, rfl⟩
abbrev main_v52 : Ref sig .tc := ⟨.hbm, 100, rfl⟩
abbrev main_v53 : Ref sig .tc := ⟨.hbm, 101, rfl⟩
abbrev main_c_23 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_c_24 : Ref sig .tc := ⟨.hbm, 106, rfl⟩
abbrev main_v57 : Ref sig .tc := ⟨.hbm, 107, rfl⟩
abbrev main_v58 : Ref sig .tc := ⟨.hbm, 108, rfl⟩
abbrev main_c_25 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_c_26 : Ref sig .tc := ⟨.hbm, 119, rfl⟩
abbrev main_v68 : Ref sig .tc := ⟨.hbm, 120, rfl⟩
abbrev main_v69 : Ref sig .tc := ⟨.hbm, 121, rfl⟩
abbrev main_c_27 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_c_28 : Ref sig .tc := ⟨.hbm, 126, rfl⟩
abbrev main_v73 : Ref sig .tc := ⟨.hbm, 127, rfl⟩
abbrev main_v74 : Ref sig .tc := ⟨.hbm, 128, rfl⟩
abbrev main_c_29 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_c_30 : Ref sig .tc := ⟨.hbm, 133, rfl⟩
abbrev main_v78 : Ref sig .tc := ⟨.hbm, 134, rfl⟩
abbrev main_v79 : Ref sig .tc := ⟨.hbm, 135, rfl⟩
abbrev main_c_31 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_c_32 : Ref sig .tc := ⟨.hbm, 146, rfl⟩
abbrev main_v89 : Ref sig .tc := ⟨.hbm, 147, rfl⟩
abbrev main_v90 : Ref sig .tc := ⟨.hbm, 148, rfl⟩
abbrev main_c_33 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_c_34 : Ref sig .tc := ⟨.hbm, 153, rfl⟩
abbrev main_v94 : Ref sig .tc := ⟨.hbm, 154, rfl⟩
abbrev main_v95 : Ref sig .tc := ⟨.hbm, 155, rfl⟩
abbrev main_c_35 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_c_36 : Ref sig .tc := ⟨.hbm, 160, rfl⟩
abbrev main_v99 : Ref sig .tc := ⟨.hbm, 161, rfl⟩
abbrev main_v100 : Ref sig .tc := ⟨.hbm, 162, rfl⟩
abbrev main_c_37 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x256x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x256x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x256x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x256x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x256x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  bcast_S_S16x256x256 : S_.BroadcastsInDim S16x256x256 (![] : Fin 0 → Fin S16x256x256.rank)
  bcast_S16_S16x1x1_0 : S16.BroadcastsInDim S16x1x1 (![0] : Fin 1 → Fin S16x1x1.rank)
  bcast_S_S16x1x1 : S_.BroadcastsInDim S16x1x1 (![] : Fin 0 → Fin S16x1x1.rank)
  bcast_S16x1x1_S16x256x256_0_1_2 : S16x1x1.BroadcastsInDim S16x256x256 (![0, 1, 2] : Fin 3 → Fin S16x256x256.rank)
  bcast_S16x256x256_S16x256x256x1_0_1_2 : S16x256x256.BroadcastsInDim S16x256x256x1 (![0, 1, 2] : Fin 3 → Fin S16x256x256x1.rank)
  concatenates_S16x256x256x1_S16x256x256x1_S16x256x256x1_S16x256x256x3_d3 : Shape.Concatenates [S16x256x256x1, S16x256x256x1, S16x256x256x1] S16x256x256x3 3
  inb_S1x16x256_S1x16x256_0_0_0 : ∀ a, (![0, 0, 0] : Fin 3 → Nat) a + S1x16x256.size a ≤ S1x16x256.size a
  h_S1x16x256 : 0 < S1x16x256.numel
  shapeCasts_S1x16x256_S1x16x256 : S1x16x256.ShapeCasts S1x16x256
  shapeCasts_S1x16x256_S1x16x256x1 : S1x16x256.ShapeCasts S1x16x256x1
  inb_S1x16x256x32_S1x16x256x32_0_0_0_0 : ∀ a, (![0, 0, 0, 0] : Fin 4 → Nat) a + S1x16x256x32.size a ≤ S1x16x256x32.size a
  h_S1x16x256x32 : 0 < S1x16x256x32.numel
  shapeCasts_S1x16x256x32_S1x16x256x32 : S1x16x256x32.ShapeCasts S1x16x256x32
  broadcasts_S1x16x256x1_S1x16x256x32 : S1x16x256x1.Broadcasts S1x16x256x32
  gather_S16x256x256x32_S16x256x256x3_S16x256x256x32_3_012_n_n_012_3_11132_wf : GatherDims.WF S16x256x256x32 S16x256x256x3 S16x256x256x32 [3] [0, 1, 2] [] [0, 1, 2] [] 3 ![1, 1, 1, 32]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x256.size a ≤ S16x256x256.size a
  hwx0_0 : ∀ i : grid0.Coords, EltTy.bits .f32 = 32 ∨ (Rect.block (s := S16x256x256) S1x16x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x256.size a ≤ S16x256x256.size a
  hwx0_1 : ∀ i : grid0.Coords, EltTy.bits .f32 = 32 ∨ (Rect.block (s := S16x256x256) S1x16x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x256.size a ≤ S16x256x256.size a
  hwx0_2 : ∀ i : grid0.Coords, EltTy.bits .f32 = 32 ∨ (Rect.block (s := S16x256x256) S1x16x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x256.size a ≤ S16x256x256.size a
  hwx0_3 : ∀ i : grid0.Coords, EltTy.bits .f32 = 32 ∨ (Rect.block (s := S16x256x256) S1x16x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x256x32.size a ≤ S16x256x256x32.size a
  hwx0_4 : ∀ i : grid0.Coords, EltTy.bits .f32 = 32 ∨ (Rect.block (s := S16x256x256x32) S1x16x256x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x16x256x32.size a ≤ S16x256x256x32.size a
  hwx0_5 : ∀ i : grid0.Coords, EltTy.bits .f32 = 32 ∨ (Rect.block (s := S16x256x256x32) S1x16x256x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x16x256x32.size a ≤ S16x256x256x32.size a
  hwx0_6 : ∀ i : grid0.Coords, EltTy.bits .f32 = 32 ∨ (Rect.block (s := S16x256x256x32) S1x16x256x32.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x16x256x32.size a ≤ S16x256x256x32.size a
  hwx0_7 : ∀ i : grid0.Coords, EltTy.bits .f32 = 32 ∨ (Rect.block (s := S16x256x256x32) S1x16x256x32.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x16x256x32.size a ≤ S16x256x256x32.size a
  hwx0_8 : ∀ i : grid0.Coords, EltTy.bits .f32 = 32 ∨ (Rect.block (s := S16x256x256x32) S1x16x256x32.size (cc0_transform_8 i) (hinb0_8 i)).WholeWords (EltTy.packing .f32)

variable [Facts₀]

def gather_S16x256x256x32_S16x256x256x3_S16x256x256x32_3_012_n_n_012_3_11132 : GatherDims S16x256x256x32 S16x256x256x3 S16x256x256x32 where
  offsetDims := [3]
  collapsedSliceDims := [0, 1, 2]
  operandBatchingDims := []
  startIndicesBatchingDims := []
  startIndexMap := [0, 1, 2]
  indexVectorDim := 3
  sliceSizes := ![1, 1, 1, 32]
  wf := gather_S16x256x256x32_S16x256x256x3_S16x256x256x32_3_012_n_n_012_3_11132_wf

abbrev win0_0 : Pipeline.Window sig grid0 :=
  Pipeline.Window.ofSpec (Memref.whole main_v116) S1x16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v119) S1x16x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v122) S1x16x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v125) S1x16x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v46) S1x16x256x32.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v67) S1x16x256x32.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v88) S1x16x256x32.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v109) S1x16x256x32.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v126) S1x16x256x32.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16x256x256x32 : Shape := ⟨4, ![16, 256, 256, 32]⟩
abbrev S16x256x256 : Shape := ⟨3, ![16, 256, 256]⟩
abbrev S_ : Shape := ⟨0, ![]⟩
abbrev S16 : Shape := ⟨1, ![16]⟩
abbrev S16x1x1 : Shape := ⟨3, ![16, 1, 1]⟩
abbrev S16x256x256x1 : Shape := ⟨4, ![16, 256, 256, 1]⟩
abbrev S16x256x256x3 : Shape := ⟨4, ![16, 256, 256, 3]⟩

abbrev nBuf : Space → Nat
  | .hbm => 204
  | .vmem => 0
  | .smem => 0
  | _ => 0

abbrev hbmTy0_0 (i : Nat) : BufTy := match i % 128 with
  | 0 => ⟨S16x256x256x32, .f32⟩
  | 1 => ⟨S16x256x256, .f32⟩
  | 2 => ⟨S16x256x256, .f32⟩
  | 3 => ⟨S_, .f32⟩
  | 4 => ⟨S16x256x256, .f32⟩
  | 5 => ⟨S16x256x256, .f32⟩
  | 6 => ⟨S_, .f32⟩
  | 7 => ⟨S16x256x256, .f32⟩
  | 8 => ⟨S16x256x256, .f32⟩
  | 9 => ⟨S_, .f32⟩
  | 10 => ⟨S16x256x256, .f32⟩
  | 11 => ⟨S16x256x256, .f32⟩
  | 12 => ⟨S_, .f32⟩
  | 13 => ⟨S16x256x256, .f32⟩
  | 14 => ⟨S16x256x256, .f32⟩
  | 15 => ⟨S_, .f32⟩
  | 16 => ⟨S16x256x256, .f32⟩
  | 17 => ⟨S16x256x256, .f32⟩
  | 18 => ⟨S_, .f32⟩
  | 19 => ⟨S16x256x256, .f32⟩
  | 20 => ⟨S16x256x256, .f32⟩
  | 21 => ⟨S16x256x256, .f32⟩
  | 22 => ⟨S16x256x256, .i32⟩
  | 23 => ⟨S_, .i32⟩
  | 24 => ⟨S16x256x256, .i32⟩
  | 25 => ⟨S16x256x256, .i32⟩
  | 26 => ⟨S16x256x256, .f32⟩
  | 27 => ⟨S16x256x256, .i32⟩
  | 28 => ⟨S_, .i32⟩
  | 29 => ⟨S16x256x256, .i32⟩
  | 30 => ⟨S16x256x256, .i32⟩
  | 31 => ⟨S_, .i32⟩
  | 32 => ⟨S_, .i32⟩
  | 33 => ⟨S_, .i32⟩
  | 34 => ⟨S16x256x256, .i32⟩
  | 35 => ⟨S16x256x256, .i32⟩
  | 36 => ⟨S_, .i32⟩
  | 37 => ⟨S16x256x256, .i32⟩
  | 38 => ⟨S16x256x256, .i32⟩
  | 39 => ⟨S_, .i32⟩
  | 40 => ⟨S_, .i32⟩
  | 41 => ⟨S_, .i32⟩
  | 42 => ⟨S16x256x256, .i32⟩
  | 43 => ⟨S16x256x256, .i32⟩
  | 44 => ⟨S_, .i32⟩
  | 45 => ⟨S16x256x256, .i32⟩
  | 46 => ⟨S16x256x256, .i32⟩
  | 47 => ⟨S_, .i32⟩
  | 48 => ⟨S_, .i32⟩
  | 49 => ⟨S_, .i32⟩
  | 50 => ⟨S16x256x256, .i32⟩
  | 51 => ⟨S16x256x256, .i32⟩
  | 52 => ⟨S_, .i32⟩
  | 53 => ⟨S16x256x256, .i32⟩
  | 54 => ⟨S16x256x256, .i32⟩
  | 55 => ⟨S_, .i32⟩
  | 56 => ⟨S_, .i32⟩
  | 57 => ⟨S_, .i32⟩
  | 58 => ⟨S16x256x256, .i32⟩
  | 59 => ⟨S16x256x256, .i32⟩
  | 60 => ⟨S_, .i32⟩
  | 61 => ⟨S16x256x256, .i32⟩
  | 62 => ⟨S16x256x256, .i32⟩
  | 63 => ⟨S16, .i32⟩
  | 64 => ⟨S16x1x1, .i32⟩
  | 65 => ⟨S_, .i32⟩
  | 66 => ⟨S16x1x1, .i32⟩
  | 67 => ⟨S16x1x1, .i1⟩
  | 68 => ⟨S_, .i32⟩
  | 69 => ⟨S16x1x1, .i32⟩
  | 70 => ⟨S16x1x1, .i32⟩
  | 71 => ⟨S16x1x1, .i32⟩
  | 72 => ⟨S_, .i32⟩
  | 73 => ⟨S16x256x256, .i32⟩
  | 74 => ⟨S16x256x256, .i1⟩
  | 75 => ⟨S_, .i32⟩
  | 76 => ⟨S16x256x256, .i32⟩
  | 77 => ⟨S16x256x256, .i32⟩
  | 78 => ⟨S16x256x256, .i32⟩
  | 79 => ⟨S_, .i32⟩
  | 80 => ⟨S16x256x256, .i32⟩
  | 81 => ⟨S16x256x256, .i1⟩
  | 82 => ⟨S_, .i32⟩
  | 83 => ⟨S16x256x256, .i32⟩
  | 84 => ⟨S16x256x256, .i32⟩
  | 85 => ⟨S16x256x256, .i32⟩
  | 86 => ⟨S16x256x256, .i32⟩
  | 87 => ⟨S16x256x256x1, .i32⟩
  | 88 => ⟨S16x256x256x1, .i32⟩
  | 89 => ⟨S16x256x256x1, .i32⟩
  | 90 => ⟨S16x256x256x3, .i32⟩
  | 91 => ⟨S16x256x256x32, .f32⟩
  | 92 => ⟨S_, .i32⟩
  | 93 => ⟨S16x1x1, .i32⟩
  | 94 => ⟨S16x1x1, .i1⟩
  | 95 => ⟨S_, .i32⟩
  | 96 => ⟨S16x1x1, .i32⟩
  | 97 => ⟨S16x1x1, .i32⟩
  | 98 => ⟨S16x1x1, .i32⟩
  | 99 => ⟨S_, .i32⟩
  | 100 => ⟨S16x256x256, .i32⟩
  | 101 => ⟨S16x256x256, .i1⟩
  | 102 => ⟨S_, .i32⟩
  | 103 => ⟨S16x256x256, .i32⟩
  | 104 => ⟨S16x256x256, .i32⟩
  | 105 => ⟨S16x256x256, .i32⟩
  | 106 => ⟨S_, .i32⟩
  | 107 => ⟨S16x256x256, .i32⟩
  | 108 => ⟨S16x256x256, .i1⟩
  | 109 => ⟨S_, .i32⟩
  | 110 => ⟨S16x256x256, .i32⟩
  | 111 => ⟨S16x256x256, .i32⟩
  | 112 => ⟨S16x256x256, .i32⟩
  | 113 => ⟨S16x256x256, .i32⟩
  | 114 => ⟨S16x256x256x1, .i32⟩
  | 115 => ⟨S16x256x256x1, .i32⟩
  | 116 => ⟨S16x256x256x1, .i32⟩
  | 117 => ⟨S16x256x256x3, .i32⟩
  | 118 => ⟨S16x256x256x32, .f32⟩
  | 119 => ⟨S_, .i32⟩
  | 120 => ⟨S16x1x1, .i32⟩
  | 121 => ⟨S16x1x1, .i1⟩
  | 122 => ⟨S_, .i32⟩
  | 123 => ⟨S16x1x1, .i32⟩
  | 124 => ⟨S16x1x1, .i32⟩
  | 125 => ⟨S16x1x1, .i32⟩
  | 126 => ⟨S_, .i32⟩
  | 127 => ⟨S16x256x256, .i32⟩
  | _ => ⟨S16x256x256x32, .f32⟩

abbrev hbmTy0_1 (i : Nat) : BufTy := match i % 128 with
  | 0 => ⟨S16x256x256, .i1⟩
  | 1 => ⟨S_, .i32⟩
  | 2 => ⟨S16x256x256, .i32⟩
  | 3 => ⟨S16x256x256, .i32⟩
  | 4 => ⟨S16x256x256, .i32⟩
  | 5 => ⟨S_, .i32⟩
  | 6 => ⟨S16x256x256, .i32⟩
  | 7 => ⟨S16x256x256, .i1⟩
  | 8 => ⟨S_, .i32⟩
  | 9 => ⟨S16x256x256, .i32⟩
  | 10 => ⟨S16x256x256, .i32⟩
  | 11 => ⟨S16x256x256, .i32⟩
  | 12 => ⟨S16x256x256, .i32⟩
  | 13 => ⟨S16x256x256x1, .i32⟩
  | 14 => ⟨S16x256x256x1, .i32⟩
  | 15 => ⟨S16x256x256x1, .i32⟩
  | 16 => ⟨S16x256x256x3, .i32⟩
  | 17 => ⟨S16x256x256x32, .f32⟩
  | 18 => ⟨S_, .i32⟩
  | 19 => ⟨S16x1x1, .i32⟩
  | 20 => ⟨S16x1x1, .i1⟩
  | 21 => ⟨S_, .i32⟩
  | 22 => ⟨S16x1x1, .i32⟩
  | 23 => ⟨S16x1x1, .i32⟩
  | 24 => ⟨S16x1x1, .i32⟩
  | 25 => ⟨S_, .i32⟩
  | 26 => ⟨S16x256x256, .i32⟩
  | 27 => ⟨S16x256x256, .i1⟩
  | 28 => ⟨S_, .i32⟩
  | 29 => ⟨S16x256x256, .i32⟩
  | 30 => ⟨S16x256x256, .i32⟩
  | 31 => ⟨S16x256x256, .i32⟩
  | 32 => ⟨S_, .i32⟩
  | 33 => ⟨S16x256x256, .i32⟩
  | 34 => ⟨S16x256x256, .i1⟩
  | 35 => ⟨S_, .i32⟩
  | 36 => ⟨S16x256x256, .i32⟩
  | 37 => ⟨S16x256x256, .i32⟩
  | 38 => ⟨S16x256x256, .i32⟩
  | 39 => ⟨S16x256x256, .i32⟩
  | 40 => ⟨S16x256x256x1, .i32⟩
  | 41 => ⟨S16x256x256x1, .i32⟩
  | 42 => ⟨S16x256x256x1, .i32⟩
  | 43 => ⟨S16x256x256x3, .i32⟩
  | 44 => ⟨S16x256x256x32, .f32⟩
  | 45 => ⟨S16x256x256, .f32⟩
  | 46 => ⟨S16x256x256, .f32⟩
  | 47 => ⟨S16x256x256, .f32⟩
  | 48 => ⟨S16x256x256, .f32⟩
  | 49 => ⟨S16x256x256, .f32⟩
  | 50 => ⟨S16x256x256, .f32⟩
  | 51 => ⟨S16x256x256, .f32⟩
  | 52 => ⟨S16x256x256x1, .f32⟩
  | 53 => ⟨S16x256x256, .f32⟩
  | 54 => ⟨S16x256x256, .f32⟩
  | 55 => ⟨S16x256x256, .f32⟩
  | 56 => ⟨S16x256x256x1, .f32⟩
  | 57 => ⟨S16x256x256, .f32⟩
  | 58 => ⟨S16x256x256, .f32⟩
  | 59 => ⟨S16x256x256, .f32⟩
  | 60 => ⟨S16x256x256x1, .f32⟩
  | 61 => ⟨S16x256x256, .f32⟩
  | 62 => ⟨S16x256x256, .f32⟩
  | 63 => ⟨S16x256x256, .f32⟩
  | 64 => ⟨S16x256x256x1, .f32⟩
  | 65 => ⟨S16x256x256x32, .f32⟩
  | 66 => ⟨S16x256x256x32, .f32⟩
  | 67 => ⟨S16x256x256x32, .f32⟩
  | 68 => ⟨S16x256x256x32, .f32⟩
  | 69 => ⟨S16x256x256x32, .f32⟩
  | 70 => ⟨S16x256x256x32, .f32⟩
  | 71 => ⟨S16x256x256x32, .f32⟩
  | 72 => ⟨S16x256x256x32, .f32⟩
  | 73 => ⟨S16x256x256x32, .f32⟩
  | 74 => ⟨S16x256x256x32, .f32⟩
  | 75 => ⟨S16x256x256x32, .f32⟩
  | _ => ⟨S16x256x256x32, .f32⟩

abbrev hbmTy (i : Nat) : BufTy := match i / 128 with
  | 0 => hbmTy0_0 i
  | 1 => hbmTy0_1 i
  | _ => ⟨S16x256x256x32, .f32⟩

abbrev bufTy : (tb : Table) → Fin (tcTables nBuf tb) → BufTy
  | .hbm, ⟨i, _⟩ => hbmTy i
  | _, _ => ⟨S16x256x256x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_cst_3 : Ref sig .tc := ⟨.hbm, 15, rfl⟩
abbrev main_v8 : Ref sig .tc := ⟨.hbm, 16, rfl⟩
abbrev main_v9 : Ref sig .tc := ⟨.hbm, 17, rfl⟩
abbrev main_cst_4 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_5 : Ref sig .tc := ⟨.hbm, 28, rfl⟩
abbrev main_v18 : Ref sig .tc := ⟨.hbm, 29, rfl⟩
abbrev main_v19 : Ref sig .tc := ⟨.hbm, 30, rfl⟩
abbrev main_c_6 : Ref sig .tc := ⟨.hbm, 31, rfl⟩
abbrev main_c_7 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v20 : Ref sig .tc := ⟨.hbm, 38, rfl⟩
abbrev main_c_8 : Ref sig .tc := ⟨.hbm, 39, rfl⟩
abbrev main_c_9 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_v21 : Ref sig .tc := ⟨.hbm, 46, rfl⟩
abbrev main_c_10 : Ref sig .tc := ⟨.hbm, 47, rfl⟩
abbrev main_c_11 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_v22 : Ref sig .tc := ⟨.hbm, 54, rfl⟩
abbrev main_c_12 : Ref sig .tc := ⟨.hbm, 55, rfl⟩
abbrev main_c_13 : Ref sig .tc := ⟨.hbm, 56, rfl⟩
abbrev main_call3_v0 : Ref sig .tc := ⟨.hbm, 57, rfl⟩
abbrev main_call3_v1 : Ref sig .tc := ⟨.hbm, 58, rfl⟩
abbrev main_call3_v2 : Ref sig .tc := ⟨.hbm, 59, rfl⟩
abbrev main_call3_v3 : Ref sig .tc := ⟨.hbm, 60, rfl⟩
abbrev main_call3_v4 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_c_14 : Ref sig .tc := ⟨.hbm, 65, rfl⟩
abbrev main_v26 : Ref sig .tc := ⟨.hbm, 66, rfl⟩
abbrev main_v27 : Ref sig .tc := ⟨.hbm, 67, rfl⟩
abbrev main_c_15 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_c_16 : Ref sig .tc := ⟨.hbm, 72, rfl⟩
abbrev main_v31 : Ref sig .tc := ⟨.hbm, 73, rfl⟩
abbrev main_v32 : Ref sig .tc := ⟨.hbm, 74, rfl⟩
abbrev main_c_17 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_c_18 : Ref sig .tc := ⟨.hbm, 79, rfl⟩
abbrev main_v36 : Ref sig .tc := ⟨.hbm, 80, rfl⟩
abbrev main_v37 : Ref sig .tc := ⟨.hbm, 81, rfl⟩
abbrev main_c_19 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_c_20 : Ref sig .tc := ⟨.hbm, 92, rfl⟩
abbrev main_v47 : Ref sig .tc := ⟨.hbm, 93, rfl⟩
abbrev main_v48 : Ref sig .tc := ⟨.hbm, 94, rfl⟩
abbrev main_c_21 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_c_22 : Ref sig .tc := ⟨.hbm, 99, rfl⟩
abbrev main_v52 : Ref sig .tc := ⟨.hbm, 100, rfl⟩
abbrev main_v53 : Ref sig .tc := ⟨.hbm, 101, rfl⟩
abbrev main_c_23 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_c_24 : Ref sig .tc := ⟨.hbm, 106, rfl⟩
abbrev main_v57 : Ref sig .tc := ⟨.hbm, 107, rfl⟩
abbrev main_v58 : Ref sig .tc := ⟨.hbm, 108, rfl⟩
abbrev main_c_25 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_c_26 : Ref sig .tc := ⟨.hbm, 119, rfl⟩
abbrev main_v68 : Ref sig .tc := ⟨.hbm, 120, rfl⟩
abbrev main_v69 : Ref sig .tc := ⟨.hbm, 121, rfl⟩
abbrev main_c_27 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_c_28 : Ref sig .tc := ⟨.hbm, 126, rfl⟩
abbrev main_v73 : Ref sig .tc := ⟨.hbm, 127, rfl⟩
abbrev main_v74 : Ref sig .tc := ⟨.hbm, 128, rfl⟩
abbrev main_c_29 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_c_30 : Ref sig .tc := ⟨.hbm, 133, rfl⟩
abbrev main_v78 : Ref sig .tc := ⟨.hbm, 134, rfl⟩
abbrev main_v79 : Ref sig .tc := ⟨.hbm, 135, rfl⟩
abbrev main_c_31 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_c_32 : Ref sig .tc := ⟨.hbm, 146, rfl⟩
abbrev main_v89 : Ref sig .tc := ⟨.hbm, 147, rfl⟩
abbrev main_v90 : Ref sig .tc := ⟨.hbm, 148, rfl⟩
abbrev main_c_33 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_c_34 : Ref sig .tc := ⟨.hbm, 153, rfl⟩
abbrev main_v94 : Ref sig .tc := ⟨.hbm, 154, rfl⟩
abbrev main_v95 : Ref sig .tc := ⟨.hbm, 155, rfl⟩
abbrev main_c_35 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_c_36 : Ref sig .tc := ⟨.hbm, 160, rfl⟩
abbrev main_v99 : Ref sig .tc := ⟨.hbm, 161, rfl⟩
abbrev main_v100 : Ref sig .tc := ⟨.hbm, 162, rfl⟩
abbrev main_c_37 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩

abbrev nD : Nat := 1
abbrev τ : Topo := Topo.v7x

variable {F : FTy → Type} [FloatOps F]

class Facts₀ : Prop where
  bcast_S_S16x256x256 : S_.BroadcastsInDim S16x256x256 (![] : Fin 0 → Fin S16x256x256.rank)
  bcast_S16_S16x1x1_0 : S16.BroadcastsInDim S16x1x1 (![0] : Fin 1 → Fin S16x1x1.rank)
  bcast_S_S16x1x1 : S_.BroadcastsInDim S16x1x1 (![] : Fin 0 → Fin S16x1x1.rank)
  bcast_S16x1x1_S16x256x256_0_1_2 : S16x1x1.BroadcastsInDim S16x256x256 (![0, 1, 2] : Fin 3 → Fin S16x256x256.rank)
  bcast_S16x256x256_S16x256x256x1_0_1_2 : S16x256x256.BroadcastsInDim S16x256x256x1 (![0, 1, 2] : Fin 3 → Fin S16x256x256x1.rank)
  concatenates_S16x256x256x1_S16x256x256x1_S16x256x256x1_S16x256x256x3_d3 : Shape.Concatenates [S16x256x256x1, S16x256x256x1, S16x256x256x1] S16x256x256x3 3
  bcast_S16x256x256x1_S16x256x256x32_0_1_2_3 : S16x256x256x1.BroadcastsInDim S16x256x256x32 (![0, 1, 2, 3] : Fin 4 → Fin S16x256x256x32.rank)
  gather_S16x256x256x32_S16x256x256x3_S16x256x256x32_3_012_n_n_012_3_11132_wf : GatherDims.WF S16x256x256x32 S16x256x256x3 S16x256x256x32 [3] [0, 1, 2] [] [0, 1, 2] [] 3 ![1, 1, 1, 32]

variable [Facts₀]

def gather_S16x256x256x32_S16x256x256x3_S16x256x256x32_3_012_n_n_012_3_11132 : GatherDims S16x256x256x32 S16x256x256x3 S16x256x256x32 where
  offsetDims := [3]
  collapsedSliceDims := [0, 1, 2]
  operandBatchingDims := []
  startIndicesBatchingDims := []
  startIndexMap := [0, 1, 2]
  indexVectorDim := 3
  sliceSizes := ![1, 1, 1, 32]
  wf := gather_S16x256x256x32_S16x256x256x3_S16x256x256x32_3_012_n_n_012_3_11132_wf

class Facts : Prop extends Facts₀ where

variable [Facts]
-- ==== Proof.RefCat3.lean ====
/-
  The index arrays of the four corner gathers.

  Each corner of the bilinear sample is gathered at a triple (batch, row, column) of integer coordinates. The program
  holds the three coordinate arrays with a trailing axis of one and sets them side by side along that axis. This module
  names that operation as a function of its three operands, and states, for each of the four places where the program
  does it, that the array written is that function of the three operands' contents, each read at its own buffer.
  Stated this way the value of an operand can be followed further back through the operations that computed it.
-/
import proofs.«122729_j18837726560482_2_alg».proof.Proof.Gen.ReferenceIdeal
import Idealize.ShloMosaic.Lib.StableHlo.Run

noncomputable section

namespace Cert.ReferenceIdeal.Cat3

open Cert.ReferenceIdeal Cert.ReferenceIdeal.Gen Idealize.ShloMosaic Idealize.ShloMosaic.TcCoe Idealize.SL.Sem Idealize.ShloMosaic.StableHlo

variable {F : FTy → Type} [FloatOps F]

/-- Three index arrays with a trailing axis of one, side by side along that axis. -/
def cat3 (p q r : (⟨S16x256x256x1, .i32⟩ : BufTy).Contents (Elt F)) : (⟨S16x256x256x3, .i32⟩ : BufTy).Contents (Elt F) :=
  concatenate S16x256x256x3 3 [⟨S16x256x256x1, p⟩, ⟨S16x256x256x1, q⟩, ⟨S16x256x256x1, r⟩] concatenates_S16x256x256x1_S16x256x256x1_S16x256x256x1_S16x256x256x3_d3

/-- The concatenation written to `main_v45`: its value is the three operands' contents, each read at its own buffer, side by side. -/
theorem cat_v45 (hxs hy) (V : Valuation τ sig (Elt F)) :
    (nary (τ := τ) ![main_v42, main_v43, main_v44] main_v45 (fun u => concatenate S16x256x256x3 3 [⟨S16x256x256x1, u 0⟩, ⟨S16x256x256x1, u 1⟩, ⟨S16x256x256x1, u 2⟩] concatenates_S16x256x256x1_S16x256x256x1_S16x256x256x1_S16x256x256x3_d3) hxs hy).result V (no_index (Proc.devRef .tc main_v45))
      = cat3 (V (Proc.devRef .tc main_v42)) (V (Proc.devRef .tc main_v43)) (V (Proc.devRef .tc main_v44)) :=
  nary_result _ _ _ hxs hy V

/-- The concatenation written to `main_v66`: its value is the three operands' contents, each read at its own buffer, side by side. -/
theorem cat_v66 (hxs hy) (V : Valuation τ sig (Elt F)) :
    (nary (τ := τ) ![main_v63, main_v64, main_v65] main_v66 (fun u => concatenate S16x256x256x3 3 [⟨S16x256x256x1, u 0⟩, ⟨S16x256x256x1, u 1⟩, ⟨S16x256x256x1, u 2⟩] concatenates_S16x256x256x1_S16x256x256x1_S16x256x256x1_S16x256x256x3_d3) hxs hy).result V (no_index (Proc.devRef .tc main_v66))
      = cat3 (V (Proc.devRef .tc main_v63)) (V (Proc.devRef .tc main_v64)) (V (Proc.devRef .tc main_v65)) :=
  nary_result _ _ _ hxs hy V

/-- The concatenation written to `main_v87`: its value is the three operands' contents, each read at its own buffer, side by side. -/
theorem cat_v87 (hxs hy) (V : Valuation τ sig (Elt F)) :
    (nary (τ := τ) ![main_v84, main_v85, main_v86] main_v87 (fun u => concatenate S16x256x256x3 3 [⟨S16x256x256x1, u 0⟩, ⟨S16x256x256x1, u 1⟩, ⟨S16x256x256x1, u 2⟩] concatenates_S16x256x256x1_S16x256x256x1_S16x256x256x1_S16x256x256x3_d3) hxs hy).result V (no_index (Proc.devRef .tc main_v87))
      = cat3 (V (Proc.devRef .tc main_v84)) (V (Proc.devRef .tc main_v85)) (V (Proc.devRef .tc main_v86)) :=
  nary_result _ _ _ hxs hy V

/-- The concatenation written to `main_v108`: its value is the three operands' contents, each read at its own buffer, side by side. -/
theorem cat_v108 (hxs hy) (V : Valuation τ sig (Elt F)) :
    (nary (τ := τ) ![main_v105, main_v106, main_v107] main_v108 (fun u => concatenate S16x256x256x3 3 [⟨S16x256x256x1, u 0⟩, ⟨S16x256x256x1, u 1⟩, ⟨S16x256x256x1, u 2⟩] concatenates_S16x256x256x1_S16x256x256x1_S16x256x256x1_S16x256x256x3_d3) hxs hy).result V (no_index (Proc.devRef .tc main_v108))
      = cat3 (V (Proc.devRef .tc main_v105)) (V (Proc.devRef .tc main_v106)) (V (Proc.devRef .tc main_v107)) :=
  nary_result _ _ _ hxs hy V

/-- The values the operations leave, by one pass: each operation's result at its own buffer is its function of its
    operands' contents, an operation leaves every other buffer as it was, and the four concatenations read their three
    operands one by one. -/
macro "after_results_cat3" : tactic =>
  `(tactic| (simp (disch := decide) only [after_cons, after_nil,
      nullary_result', unary_result', binary_result', ternary_result', quaternary_result', reshape_result',
      cat_v45, cat_v66, cat_v87, cat_v108,
      unaryIndexed_result', binaryIndexed_result',
      nullary_result_ne', unary_result_ne', binary_result_ne', ternary_result_ne', quaternary_result_ne', reshape_result_ne',
      nary_result_ne', unaryIndexed_result_ne', binaryIndexed_result_ne']))

end Cert.ReferenceIdeal.Cat3

end
-- ==== Proof.RefBridge.lean ====
/-
  The reference's result, as its run names it, is the last of its named stages.

  The run of the reference states its result as one composed term of the three arguments; the stages name the same
  operations one at a time. Unfolding the stages gives the composed term back, operation for operation.
-/
import proofs.«122729_j18837726560482_2_alg».proof.Proof.RefRun
import proofs.«122729_j18837726560482_2_alg».proof.Proof.RefRead

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]

/-- The run's composed term of the arguments is the last stage at those arguments. -/
theorem val_main_v140_eq (m : (ℓ : Loc nD τ sig) → Buf (Elt F) ℓ) (c : Dev nD) :
    Cert.ReferenceIdeal.ValueP.res_main_v140 m c = val_main_v140 (F := F) (m ((c.tc : Thread nD τ).loc main_arg0)) (m ((c.tc : Thread nD τ).loc main_arg1)) (m ((c.tc : Thread nD τ).loc main_arg2)) := by
  unfold Cert.ReferenceIdeal.ValueP.res_main_v140; rfl

end Cert.ReferenceIdeal.ReadP

end
-- ==== Proof.KernelFrame.lean ====
/-
  The launch side of `Kernel`, at any float instance `F`.

  The program is a line of elementwise host operations (pixel coordinates from the normalised sampling
  positions, their floors and clipped neighbours, the four corner gathers of the image and the four bilinear
  weights), followed by ONE grid of 16 x 16 points. At point (b, h) the grid's body reads the block
  [b, 16h .. 16h+15, :] of each weight array and the block [b, 16h .. 16h+15, :, :] of each gathered corner,
  and writes the block [b, 16h .. 16h+15, :, :] of the result with
      wa * Ia + wb * Ib + wc * Ic + wd * Id,
  each weight repeated along the channel axis.

  This module states what the grid's body leaves in the result's block as ONE function of the eight input
  blocks (`blockOut`), proves the body's triple, and runs the whole program: every weakly fair execution
  terminates, the three argument arrays end as launched, and the result array ends at what the blocks
  written back compose to (`run_main`).
-/
import proofs.«122729_j18837726560482_2_alg».proof.Proof.Gen.Kernel.Launch
import proofs.«122729_j18837726560482_2_alg».proof.Proof.Gen.Kernel.Skeleton
import proofs.«122729_j18837726560482_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the grid -/

/-- What core `c`'s buffers hold when the grid starts: the launch memory after the host operations, in order. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
set_option maxHeartbeats 4000000 in
theorem hostOps0_8_fresh : (hostOps0_8 : List (HloOp τ sig (Elt F))).Forall fun op => op.fresh = ∅ := by
  simp only [List.Forall]; repeat' constructor

/-- The program is those host operations and then the grid. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8]
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

set_option maxHeartbeats 4000000 in
/-- No host operation writes argument 0: the grid finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))
set_option maxHeartbeats 4000000 in
/-- No host operation writes argument 1: the grid finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))
set_option maxHeartbeats 4000000 in
/-- No host operation writes argument 2: the grid finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))

/-! ## The blocks the grid reads -/

/-- Window `w`'s block at grid point `t`, read off its array as the grid finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input 0's staging buffer holds its block at every point (every point fetches it). -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input 1's staging buffer holds its block at every point (every point fetches it). -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input 2's staging buffer holds its block at every point (every point fetches it). -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input 3's staging buffer holds its block at every point (every point fetches it). -/
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input 4's staging buffer holds its block at every point (every point fetches it). -/
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input 5's staging buffer holds its block at every point (every point fetches it). -/
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input 6's staging buffer holds its block at every point (every point fetches it). -/
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input 7's staging buffer holds its block at every point (every point fetches it). -/
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The argument arrays end as launched -/

/-- From a run that ends with every array no window stages as the grid found it, the three arguments end as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) h

/-! ## What the body leaves in the result's block -/

/-- The whole weight block and the whole corner block: the body reads and writes nothing smaller. -/
abbrev rW : Rect S1x16x256 := Rect.unit (s := S1x16x256) ![0, 0, 0] S1x16x256.size inb_S1x16x256_S1x16x256_0_0_0
abbrev rI : Rect S1x16x256x32 := Rect.unit (s := S1x16x256x32) ![0, 0, 0, 0] S1x16x256x32.size inb_S1x16x256x32_S1x16x256x32_0_0_0_0

/-- The result's block after the body, from the four weight blocks `x0 … x3` and the four corner blocks `x4 … x7`:
    one store of the whole block, of the sum of the four weighted corners. -/
def blockOut (x0 x1 x2 x3 : Vec F S1x16x256 .f32) (x4 x5 x6 x7 : Vec F S1x16x256x32 .f32) : Vec F S1x16x256x32 .f32 :=
  View.canon [⟨rI, k0_pay1 (k0_pay2 (View.ld x0 rW) (View.ld x1 rW) (View.ld x2 rW) (View.ld x4 rI) (View.ld x5 rI) (View.ld x6 rI))
    (k0_pay3 (View.ld x3 rW) (View.ld x7 rI))⟩]

/-- The one store covers the block. -/
theorem blockOut_cover (p0 : Vec F S1x16x256x32 .f32) (y : S1x16x256x32.Idx) :
    ∃ pc ∈ ([⟨rI, p0⟩] : List (View.Piece (Elt F) S1x16x256x32 .f32)), y ∈ pc.1.set :=
  View.cover_of_tiled [⟨rI, p0⟩] S1x16x256x32.size (by rfl) y

/-! ## The body's triple -/

set_option maxHeartbeats 4000000 in
/-- The body on whole staging buffers, the eight inputs' at `x0 … x7` and the result's at anything, runs to the
    continuation with the inputs as they were and the result's buffer at `blockOut` of them. -/
theorem sound_kernel (c : Dev nD) (E : Set ℕ) (i : grid0.Coords)
    (arg2 : Memref sig .tc .vmem S1x16x256 .f32) (harg2 : arg2.IsWhole) (arg3 : Memref sig .tc .vmem S1x16x256 .f32) (harg3 : arg3.IsWhole)
    (arg4 : Memref sig .tc .vmem S1x16x256 .f32) (harg4 : arg4.IsWhole) (arg5 : Memref sig .tc .vmem S1x16x256 .f32) (harg5 : arg5.IsWhole)
    (arg6 : Memref sig .tc .vmem S1x16x256x32 .f32) (harg6 : arg6.IsWhole) (arg7 : Memref sig .tc .vmem S1x16x256x32 .f32) (harg7 : arg7.IsWhole)
    (arg8 : Memref sig .tc .vmem S1x16x256x32 .f32) (harg8 : arg8.IsWhole) (arg9 : Memref sig .tc .vmem S1x16x256x32 .f32) (harg9 : arg9.IsWhole)
    (arg10 : Memref sig .tc .vmem S1x16x256x32 .f32) (harg10 : arg10.IsWhole)
    (x0 x1 x2 x3 : Vec F S1x16x256 .f32) (x4 x5 x6 x7 : Vec F S1x16x256x32 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7 ∗ (∃ d, owns (c : Thread nD τ) arg10 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare x7
            ∗ owns (c : Thread nD τ) arg10 fullShare (blockOut x0 x1 x2 x3 x4 x5 x6 x7)) -∗ K ⟨⟩))
      ⊢ wp frame (wpE (defs₀ (F := F)) Variants.none c none) E
          (cc0__weighted_sum_kernel i arg2 harg2 arg3 harg3 arg4 harg4 arg5 harg5 arg6 harg6 arg7 harg7 arg8 harg8 arg9 harg9 arg10 harg10) K := by
  simp only [cc0__weighted_sum_kernel_eq_skeleton]; unfold cc0__weighted_sum_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (blockOut_cover _)

/-! ## The grid's proof data -/

/-- On core `c`: the arrays as the grid finds them; after the body at point `t` each input's buffer still at its
    block and the result's at `blockOut` of the eight input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => blockOut (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t
    = blockOut (iblk m c 0 t) (iblk m c 1 t) (iblk m c 2 t) (iblk m c 3 t) (iblk m c 4 t) (iblk m c 5 t) (iblk m c 6 t) (iblk m c 7 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d

/-! ## The body at a grid point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 4000000 in
/-- At any point the inputs' buffers hold their blocks, so the body's triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program terminates; every array of the grid ends at what its blocks written
    back compose to, every other unscoped buffer as the grid found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program terminates with its three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Fr

end
-- ==== Proof.KernelIdealFrame.lean ====
/-
  The launch side of `KernelIdeal`, at any float instance `F`.

  The program is a line of elementwise host operations (pixel coordinates from the normalised sampling
  positions, their floors and clipped neighbours, the four corner gathers of the image and the four bilinear
  weights), followed by ONE grid of 16 x 16 points. At point (b, h) the grid's body reads the block
  [b, 16h .. 16h+15, :] of each weight array and the block [b, 16h .. 16h+15, :, :] of each gathered corner,
  and writes the block [b, 16h .. 16h+15, :, :] of the result with
      wa * Ia + wb * Ib + wc * Ic + wd * Id,
  each weight repeated along the channel axis.

  This module states what the grid's body leaves in the result's block as ONE function of the eight input
  blocks (`blockOut`), proves the body's triple, and runs the whole program: every weakly fair execution
  terminates, the three argument arrays end as launched, and the result array ends at what the blocks
  written back compose to (`run_main`).
-/
import proofs.«122729_j18837726560482_2_alg».proof.Proof.Gen.KernelIdeal.Launch
import proofs.«122729_j18837726560482_2_alg».proof.Proof.Gen.KernelIdeal.Skeleton
import proofs.«122729_j18837726560482_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the grid -/

/-- What core `c`'s buffers hold when the grid starts: the launch memory after the host operations, in order. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
set_option maxHeartbeats 4000000 in
theorem hostOps0_8_fresh : (hostOps0_8 : List (HloOp τ sig (Elt F))).Forall fun op => op.fresh = ∅ := by
  simp only [List.Forall]; repeat' constructor

/-- The program is those host operations and then the grid. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8]
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

set_option maxHeartbeats 4000000 in
/-- No host operation writes argument 0: the grid finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))
set_option maxHeartbeats 4000000 in
/-- No host operation writes argument 1: the grid finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))
set_option maxHeartbeats 4000000 in
/-- No host operation writes argument 2: the grid finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))

/-! ## The blocks the grid reads -/

/-- Window `w`'s block at grid point `t`, read off its array as the grid finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input 0's staging buffer holds its block at every point (every point fetches it). -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input 1's staging buffer holds its block at every point (every point fetches it). -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input 2's staging buffer holds its block at every point (every point fetches it). -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input 3's staging buffer holds its block at every point (every point fetches it). -/
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input 4's staging buffer holds its block at every point (every point fetches it). -/
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input 5's staging buffer holds its block at every point (every point fetches it). -/
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input 6's staging buffer holds its block at every point (every point fetches it). -/
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input 7's staging buffer holds its block at every point (every point fetches it). -/
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The argument arrays end as launched -/

/-- From a run that ends with every array no window stages as the grid found it, the three arguments end as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) h

/-! ## What the body leaves in the result's block -/

/-- The whole weight block and the whole corner block: the body reads and writes nothing smaller. -/
abbrev rW : Rect S1x16x256 := Rect.unit (s := S1x16x256) ![0, 0, 0] S1x16x256.size inb_S1x16x256_S1x16x256_0_0_0
abbrev rI : Rect S1x16x256x32 := Rect.unit (s := S1x16x256x32) ![0, 0, 0, 0] S1x16x256x32.size inb_S1x16x256x32_S1x16x256x32_0_0_0_0

/-- The result's block after the body, from the four weight blocks `x0 … x3` and the four corner blocks `x4 … x7`:
    one store of the whole block, of the sum of the four weighted corners. -/
def blockOut (x0 x1 x2 x3 : Vec F S1x16x256 .f32) (x4 x5 x6 x7 : Vec F S1x16x256x32 .f32) : Vec F S1x16x256x32 .f32 :=
  View.canon [⟨rI, k0_pay1 (k0_pay2 (View.ld x0 rW) (View.ld x1 rW) (View.ld x2 rW) (View.ld x4 rI) (View.ld x5 rI) (View.ld x6 rI))
    (k0_pay3 (View.ld x3 rW) (View.ld x7 rI))⟩]

/-- The one store covers the block. -/
theorem blockOut_cover (p0 : Vec F S1x16x256x32 .f32) (y : S1x16x256x32.Idx) :
    ∃ pc ∈ ([⟨rI, p0⟩] : List (View.Piece (Elt F) S1x16x256x32 .f32)), y ∈ pc.1.set :=
  View.cover_of_tiled [⟨rI, p0⟩] S1x16x256x32.size (by rfl) y

/-! ## The body's triple -/

set_option maxHeartbeats 4000000 in
/-- The body on whole staging buffers, the eight inputs' at `x0 … x7` and the result's at anything, runs to the
    continuation with the inputs as they were and the result's buffer at `blockOut` of them. -/
theorem sound_kernel (c : Dev nD) (E : Set ℕ) (i : grid0.Coords)
    (arg2 : Memref sig .tc .vmem S1x16x256 .f32) (harg2 : arg2.IsWhole) (arg3 : Memref sig .tc .vmem S1x16x256 .f32) (harg3 : arg3.IsWhole)
    (arg4 : Memref sig .tc .vmem S1x16x256 .f32) (harg4 : arg4.IsWhole) (arg5 : Memref sig .tc .vmem S1x16x256 .f32) (harg5 : arg5.IsWhole)
    (arg6 : Memref sig .tc .vmem S1x16x256x32 .f32) (harg6 : arg6.IsWhole) (arg7 : Memref sig .tc .vmem S1x16x256x32 .f32) (harg7 : arg7.IsWhole)
    (arg8 : Memref sig .tc .vmem S1x16x256x32 .f32) (harg8 : arg8.IsWhole) (arg9 : Memref sig .tc .vmem S1x16x256x32 .f32) (harg9 : arg9.IsWhole)
    (arg10 : Memref sig .tc .vmem S1x16x256x32 .f32) (harg10 : arg10.IsWhole)
    (x0 x1 x2 x3 : Vec F S1x16x256 .f32) (x4 x5 x6 x7 : Vec F S1x16x256x32 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7 ∗ (∃ d, owns (c : Thread nD τ) arg10 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare x7
            ∗ owns (c : Thread nD τ) arg10 fullShare (blockOut x0 x1 x2 x3 x4 x5 x6 x7)) -∗ K ⟨⟩))
      ⊢ wp frame (wpE (defs₀ (F := F)) Variants.none c none) E
          (cc0__weighted_sum_kernel i arg2 harg2 arg3 harg3 arg4 harg4 arg5 harg5 arg6 harg6 arg7 harg7 arg8 harg8 arg9 harg9 arg10 harg10) K := by
  simp only [cc0__weighted_sum_kernel_eq_skeleton]; unfold cc0__weighted_sum_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (blockOut_cover _)

/-! ## The grid's proof data -/

/-- On core `c`: the arrays as the grid finds them; after the body at point `t` each input's buffer still at its
    block and the result's at `blockOut` of the eight input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => blockOut (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t
    = blockOut (iblk m c 0 t) (iblk m c 1 t) (iblk m c 2 t) (iblk m c 3 t) (iblk m c 4 t) (iblk m c 5 t) (iblk m c 6 t) (iblk m c 7 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d

/-! ## The body at a grid point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 4000000 in
/-- At any point the inputs' buffers hold their blocks, so the body's triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program terminates; every array of the grid ends at what its blocks written
    back compose to, every other unscoped buffer as the grid found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program terminates with its three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Fr

end
-- ==== Proof.KernelIdealPoint.lean ====
/-
  One position of one block of `KernelIdeal`'s grid.

  The grid's point (b, h) reads the blocks [b, 16h .. 16h+15, :] of the four weight arrays and the blocks
  [b, 16h .. 16h+15, :, :] of the four corner arrays and writes the block [b, 16h .. 16h+15, :, :] of the result. This
  module says what the body stores at a position (r, s, ch) of its block — the four corners there, each times its weight
  at (r, s), summed —, that a position of an input block is the input array's entry at the matching place of the result
  array, and that the 256 blocks tile the result.
-/
import proofs.«122729_j18837726560482_2_alg».proof.Proof.KernelIdealFrame
import Idealize.ShloMosaic.Lib.Pipeline.Value
import Idealize.ShloMosaic.Lib.ValueIdx

set_option maxRecDepth 16384

noncomputable section

namespace Cert.KernelIdeal.Point

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ) (ρ : Dev nD → PrngReg)

/-! ## The body's value at a position of the block -/

/-- A weight block viewed with a trailing axis of one and repeated along the 32 channels, read at (z, r, s, ch), is the
    weight at (z, r, s). -/
theorem keepdim_read (w : Vec F S1x16x256 .f32) (z : Fin 1) (r : Fin 16) (s : Fin 256) (ch : Fin 32) :
    broadcastTo S1x16x256x32 (shapeCast S1x16x256x1 (shapeCast S1x16x256 w shapeCasts_S1x16x256_S1x16x256) shapeCasts_S1x16x256_S1x16x256x1)
      broadcasts_S1x16x256x1_S1x16x256x32 (ix4 z r s ch) = w (ix3 z r s) := by
  rw [shapeCast_self]
  refine (broadcastTo_apply _ broadcasts_S1x16x256x1_S1x16x256x32 (ix4 z r s ch) (ix4 z r s (0 : Fin 1)) (fun a => ?_)).trans
    (shapeCast_apply w shapeCasts_S1x16x256_S1x16x256x1 (ix4 z r s (0 : Fin 1)) (ix3 z r s) ?_)
  · match a with
    | ⟨0, _⟩ => show z.val = if (1 : Nat) = 1 then 0 else z.val; rw [if_pos rfl]; omega
    | ⟨1, _⟩ => show r.val = if (16 : Nat) = 1 then 0 else r.val; rw [if_neg (by decide)]
    | ⟨2, _⟩ => show s.val = if (256 : Nat) = 1 then 0 else s.val; rw [if_neg (by decide)]
    | ⟨3, _⟩ => show (0 : Nat) = if (1 : Nat) = 1 then 0 else ch.val; rw [if_pos rfl]
  · rw [Shape.rowMajor_val_three, Shape.rowMajor_val_four]
    show (z.val * 16 + r.val) * 256 + s.val = ((z.val * 16 + r.val) * 256 + s.val) * 1 + 0
    omega

/-- What the body stores at (z, r, s, ch): the sum of the four corners there, each times its weight at (z, r, s). -/
theorem body_apply (x0 x1 x2 x3 : Vec F S1x16x256 .f32) (x4 x5 x6 x7 : Vec F S1x16x256x32 .f32)
    (z : Fin 1) (r : Fin 16) (s : Fin 256) (ch : Fin 32) :
    k0_pay1 (k0_pay2 x0 x1 x2 x4 x5 x6) (k0_pay3 x3 x7) (ix4 z r s ch)
      = FloatOps.addf (FloatOps.addf (FloatOps.addf (FloatOps.mulf (x0 (ix3 z r s)) (x4 (ix4 z r s ch))) (FloatOps.mulf (x1 (ix3 z r s)) (x5 (ix4 z r s ch))))
          (FloatOps.mulf (x2 (ix3 z r s)) (x6 (ix4 z r s ch)))) (FloatOps.mulf (x3 (ix3 z r s)) (x7 (ix4 z r s ch))) := by
  have e0 := keepdim_read x0 z r s ch
  have e1 := keepdim_read x1 z r s ch
  have e2 := keepdim_read x2 z r s ch
  have e3 := keepdim_read x3 z r s ch
  have s4 : shapeCast S1x16x256x32 x4 shapeCasts_S1x16x256x32_S1x16x256x32 = x4 := shapeCast_self _ _
  have s5 : shapeCast S1x16x256x32 x5 shapeCasts_S1x16x256x32_S1x16x256x32 = x5 := shapeCast_self _ _
  have s6 : shapeCast S1x16x256x32 x6 shapeCasts_S1x16x256x32_S1x16x256x32 = x6 := shapeCast_self _ _
  have s7 : shapeCast S1x16x256x32 x7 shapeCasts_S1x16x256x32_S1x16x256x32 = x7 := shapeCast_self _ _
  unfold k0_pay1 k0_pay2 k0_pay3
  exact congrArg₂ FloatOps.addf (congrArg₂ FloatOps.addf (congrArg₂ FloatOps.addf
    (congrArg₂ FloatOps.mulf e0 (congrFun s4 _)) (congrArg₂ FloatOps.mulf e1 (congrFun s5 _)))
    (congrArg₂ FloatOps.mulf e2 (congrFun s6 _))) (congrArg₂ FloatOps.mulf e3 (congrFun s7 _))

/-! ## The index maps over the grid -/

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The result's block index at a point is (b, h, 0, 0) with b, h < 16. -/
theorem idx_out : ∀ t : Fin cfg0.N, win0_8.index t (0 : Fin 4) < 16 ∧ win0_8.index t (1 : Fin 4) < 16
    ∧ win0_8.index t (2 : Fin 4) = 0 ∧ win0_8.index t (3 : Fin 4) = 0 :=
  (by decide +kernel : ∀ t : Fin grid0.N, _)
/-- Weight window 0 moves with the result: its block index is (b, h, 0). -/
theorem idx_w0 : ∀ t : Fin cfg0.N, win0_0.index t (0 : Fin 3) = win0_8.index t (0 : Fin 4)
    ∧ win0_0.index t (1 : Fin 3) = win0_8.index t (1 : Fin 4) ∧ win0_0.index t (2 : Fin 3) = 0 :=
  (by decide +kernel : ∀ t : Fin grid0.N, _)
/-- Weight window 1 moves with the result: its block index is (b, h, 0). -/
theorem idx_w1 : ∀ t : Fin cfg0.N, win0_1.index t (0 : Fin 3) = win0_8.index t (0 : Fin 4)
    ∧ win0_1.index t (1 : Fin 3) = win0_8.index t (1 : Fin 4) ∧ win0_1.index t (2 : Fin 3) = 0 :=
  (by decide +kernel : ∀ t : Fin grid0.N, _)
/-- Weight window 2 moves with the result: its block index is (b, h, 0). -/
theorem idx_w2 : ∀ t : Fin cfg0.N, win0_2.index t (0 : Fin 3) = win0_8.index t (0 : Fin 4)
    ∧ win0_2.index t (1 : Fin 3) = win0_8.index t (1 : Fin 4) ∧ win0_2.index t (2 : Fin 3) = 0 :=
  (by decide +kernel : ∀ t : Fin grid0.N, _)
/-- Weight window 3 moves with the result: its block index is (b, h, 0). -/
theorem idx_w3 : ∀ t : Fin cfg0.N, win0_3.index t (0 : Fin 3) = win0_8.index t (0 : Fin 4)
    ∧ win0_3.index t (1 : Fin 3) = win0_8.index t (1 : Fin 4) ∧ win0_3.index t (2 : Fin 3) = 0 :=
  (by decide +kernel : ∀ t : Fin grid0.N, _)
/-- Corner window 4 moves with the result: the same block index. -/
theorem idx_w4 : ∀ t : Fin cfg0.N, win0_4.index t (0 : Fin 4) = win0_8.index t (0 : Fin 4)
    ∧ win0_4.index t (1 : Fin 4) = win0_8.index t (1 : Fin 4) ∧ win0_4.index t (2 : Fin 4) = win0_8.index t (2 : Fin 4)
    ∧ win0_4.index t (3 : Fin 4) = win0_8.index t (3 : Fin 4) :=
  (by decide +kernel : ∀ t : Fin grid0.N, _)
/-- Corner window 5 moves with the result: the same block index. -/
theorem idx_w5 : ∀ t : Fin cfg0.N, win0_5.index t (0 : Fin 4) = win0_8.index t (0 : Fin 4)
    ∧ win0_5.index t (1 : Fin 4) = win0_8.index t (1 : Fin 4) ∧ win0_5.index t (2 : Fin 4) = win0_8.index t (2 : Fin 4)
    ∧ win0_5.index t (3 : Fin 4) = win0_8.index t (3 : Fin 4) :=
  (by decide +kernel : ∀ t : Fin grid0.N, _)
/-- Corner window 6 moves with the result: the same block index. -/
theorem idx_w6 : ∀ t : Fin cfg0.N, win0_6.index t (0 : Fin 4) = win0_8.index t (0 : Fin 4)
    ∧ win0_6.index t (1 : Fin 4) = win0_8.index t (1 : Fin 4) ∧ win0_6.index t (2 : Fin 4) = win0_8.index t (2 : Fin 4)
    ∧ win0_6.index t (3 : Fin 4) = win0_8.index t (3 : Fin 4) :=
  (by decide +kernel : ∀ t : Fin grid0.N, _)
/-- Corner window 7 moves with the result: the same block index. -/
theorem idx_w7 : ∀ t : Fin cfg0.N, win0_7.index t (0 : Fin 4) = win0_8.index t (0 : Fin 4)
    ∧ win0_7.index t (1 : Fin 4) = win0_8.index t (1 : Fin 4) ∧ win0_7.index t (2 : Fin 4) = win0_8.index t (2 : Fin 4)
    ∧ win0_7.index t (3 : Fin 4) = win0_8.index t (3 : Fin 4) :=
  (by decide +kernel : ∀ t : Fin grid0.N, _)
/-- Every block of the result is some point's. -/
theorem idx_onto : ∀ (q0 : Fin 16) (q1 : Fin 16), ∃ t : Fin cfg0.N, win0_8.index t = ![q0.val, q1.val, 0, 0] :=
  (by decide +kernel : ∀ (q0 : Fin 16) (q1 : Fin 16), ∃ t : Fin grid0.N, win0_8.index t = ![q0.val, q1.val, 0, 0])

/-! ## The input blocks at a position, as the arrays' entries -/

/-- Weight block 0 at (z, r, s) is its array at the result position's first three coordinates. -/
theorem wblk0 (c : Dev nD) (t : Fin cfg0.N) (z : Fin 1) (r : Fin 16) (s : Fin 256) (ch : Fin 32) (i3 : S16x256x256.Idx)
    (h0 : (i3 0).val = win0_8.index t (0 : Fin 4) * 1 + 1 * z.val) (h1 : (i3 1).val = win0_8.index t (1 : Fin 4) * 16 + 1 * r.val)
    (h2 : (i3 2).val = win0_8.index t (2 : Fin 4) * 256 + 1 * s.val) :
    iblk m c 0 t (ix3 z r s) = V m c main_v116 i3 := by
  obtain ⟨e0, e1, e2⟩ := idx_w0 t
  obtain ⟨-, -, o2, -⟩ := idx_out t
  show V m c main_v116 (((cfg0.win 0).blk t).view.emb (ix3 z r s)) = V m c main_v116 i3
  refine congrArg _ (funext fun a => Fin.ext ?_)
  match a with
  | ⟨0, _⟩ => show win0_0.index t (0 : Fin 3) * 1 + 1 * z.val = (i3 0).val; omega
  | ⟨1, _⟩ => show win0_0.index t (1 : Fin 3) * 16 + 1 * r.val = (i3 1).val; omega
  | ⟨2, _⟩ => show win0_0.index t (2 : Fin 3) * 256 + 1 * s.val = (i3 2).val; omega
/-- Weight block 1 at (z, r, s) is its array at the result position's first three coordinates. -/
theorem wblk1 (c : Dev nD) (t : Fin cfg0.N) (z : Fin 1) (r : Fin 16) (s : Fin 256) (ch : Fin 32) (i3 : S16x256x256.Idx)
    (h0 : (i3 0).val = win0_8.index t (0 : Fin 4) * 1 + 1 * z.val) (h1 : (i3 1).val = win0_8.index t (1 : Fin 4) * 16 + 1 * r.val)
    (h2 : (i3 2).val = win0_8.index t (2 : Fin 4) * 256 + 1 * s.val) :
    iblk m c 1 t (ix3 z r s) = V m c main_v119 i3 := by
  obtain ⟨e0, e1, e2⟩ := idx_w1 t
  obtain ⟨-, -, o2, -⟩ := idx_out t
  show V m c main_v119 (((cfg0.win 1).blk t).view.emb (ix3 z r s)) = V m c main_v119 i3
  refine congrArg _ (funext fun a => Fin.ext ?_)
  match a with
  | ⟨0, _⟩ => show win0_1.index t (0 : Fin 3) * 1 + 1 * z.val = (i3 0).val; omega
  | ⟨1, _⟩ => show win0_1.index t (1 : Fin 3) * 16 + 1 * r.val = (i3 1).val; omega
  | ⟨2, _⟩ => show win0_1.index t (2 : Fin 3) * 256 + 1 * s.val = (i3 2).val; omega
/-- Weight block 2 at (z, r, s) is its array at the result position's first three coordinates. -/
theorem wblk2 (c : Dev nD) (t : Fin cfg0.N) (z : Fin 1) (r : Fin 16) (s : Fin 256) (ch : Fin 32) (i3 : S16x256x256.Idx)
    (h0 : (i3 0).val = win0_8.index t (0 : Fin 4) * 1 + 1 * z.val) (h1 : (i3 1).val = win0_8.index t (1 : Fin 4) * 16 + 1 * r.val)
    (h2 : (i3 2).val = win0_8.index t (2 : Fin 4) * 256 + 1 * s.val) :
    iblk m c 2 t (ix3 z r s) = V m c main_v122 i3 := by
  obtain ⟨e0, e1, e2⟩ := idx_w2 t
  obtain ⟨-, -, o2, -⟩ := idx_out t
  show V m c main_v122 (((cfg0.win 2).blk t).view.emb (ix3 z r s)) = V m c main_v122 i3
  refine congrArg _ (funext fun a => Fin.ext ?_)
  match a with
  | ⟨0, _⟩ => show win0_2.index t (0 : Fin 3) * 1 + 1 * z.val = (i3 0).val; omega
  | ⟨1, _⟩ => show win0_2.index t (1 : Fin 3) * 16 + 1 * r.val = (i3 1).val; omega
  | ⟨2, _⟩ => show win0_2.index t (2 : Fin 3) * 256 + 1 * s.val = (i3 2).val; omega
/-- Weight block 3 at (z, r, s) is its array at the result position's first three coordinates. -/
theorem wblk3 (c : Dev nD) (t : Fin cfg0.N) (z : Fin 1) (r : Fin 16) (s : Fin 256) (ch : Fin 32) (i3 : S16x256x256.Idx)
    (h0 : (i3 0).val = win0_8.index t (0 : Fin 4) * 1 + 1 * z.val) (h1 : (i3 1).val = win0_8.index t (1 : Fin 4) * 16 + 1 * r.val)
    (h2 : (i3 2).val = win0_8.index t (2 : Fin 4) * 256 + 1 * s.val) :
    iblk m c 3 t (ix3 z r s) = V m c main_v125 i3 := by
  obtain ⟨e0, e1, e2⟩ := idx_w3 t
  obtain ⟨-, -, o2, -⟩ := idx_out t
  show V m c main_v125 (((cfg0.win 3).blk t).view.emb (ix3 z r s)) = V m c main_v125 i3
  refine congrArg _ (funext fun a => Fin.ext ?_)
  match a with
  | ⟨0, _⟩ => show win0_3.index t (0 : Fin 3) * 1 + 1 * z.val = (i3 0).val; omega
  | ⟨1, _⟩ => show win0_3.index t (1 : Fin 3) * 16 + 1 * r.val = (i3 1).val; omega
  | ⟨2, _⟩ => show win0_3.index t (2 : Fin 3) * 256 + 1 * s.val = (i3 2).val; omega

/-- Corner block 4 at (z, r, s, ch) is its array at the result position. -/
theorem cblk4 (c : Dev nD) (t : Fin cfg0.N) (y : S1x16x256x32.Idx) :
    iblk m c 4 t y = V m c main_v46 (((cfg0.win 8).blk t).view.emb y) := by
  obtain ⟨e0, e1, e2, e3⟩ := idx_w4 t
  show V m c main_v46 (((cfg0.win 4).blk t).view.emb y) = V m c main_v46 (((cfg0.win 8).blk t).view.emb y)
  refine congrArg _ (funext fun a => Fin.ext ?_)
  match a with
  | ⟨0, _⟩ => show win0_4.index t (0 : Fin 4) * 1 + 1 * (y 0).val = win0_8.index t (0 : Fin 4) * 1 + 1 * (y 0).val; omega
  | ⟨1, _⟩ => show win0_4.index t (1 : Fin 4) * 16 + 1 * (y 1).val = win0_8.index t (1 : Fin 4) * 16 + 1 * (y 1).val; omega
  | ⟨2, _⟩ => show win0_4.index t (2 : Fin 4) * 256 + 1 * (y 2).val = win0_8.index t (2 : Fin 4) * 256 + 1 * (y 2).val; omega
  | ⟨3, _⟩ => show win0_4.index t (3 : Fin 4) * 32 + 1 * (y 3).val = win0_8.index t (3 : Fin 4) * 32 + 1 * (y 3).val; omega
/-- Corner block 5 at (z, r, s, ch) is its array at the result position. -/
theorem cblk5 (c : Dev nD) (t : Fin cfg0.N) (y : S1x16x256x32.Idx) :
    iblk m c 5 t y = V m c main_v67 (((cfg0.win 8).blk t).view.emb y) := by
  obtain ⟨e0, e1, e2, e3⟩ := idx_w5 t
  show V m c main_v67 (((cfg0.win 5).blk t).view.emb y) = V m c main_v67 (((cfg0.win 8).blk t).view.emb y)
  refine congrArg _ (funext fun a => Fin.ext ?_)
  match a with
  | ⟨0, _⟩ => show win0_5.index t (0 : Fin 4) * 1 + 1 * (y 0).val = win0_8.index t (0 : Fin 4) * 1 + 1 * (y 0).val; omega
  | ⟨1, _⟩ => show win0_5.index t (1 : Fin 4) * 16 + 1 * (y 1).val = win0_8.index t (1 : Fin 4) * 16 + 1 * (y 1).val; omega
  | ⟨2, _⟩ => show win0_5.index t (2 : Fin 4) * 256 + 1 * (y 2).val = win0_8.index t (2 : Fin 4) * 256 + 1 * (y 2).val; omega
  | ⟨3, _⟩ => show win0_5.index t (3 : Fin 4) * 32 + 1 * (y 3).val = win0_8.index t (3 : Fin 4) * 32 + 1 * (y 3).val; omega
/-- Corner block 6 at (z, r, s, ch) is its array at the result position. -/
theorem cblk6 (c : Dev nD) (t : Fin cfg0.N) (y : S1x16x256x32.Idx) :
    iblk m c 6 t y = V m c main_v88 (((cfg0.win 8).blk t).view.emb y) := by
  obtain ⟨e0, e1, e2, e3⟩ := idx_w6 t
  show V m c main_v88 (((cfg0.win 6).blk t).view.emb y) = V m c main_v88 (((cfg0.win 8).blk t).view.emb y)
  refine congrArg _ (funext fun a => Fin.ext ?_)
  match a with
  | ⟨0, _⟩ => show win0_6.index t (0 : Fin 4) * 1 + 1 * (y 0).val = win0_8.index t (0 : Fin 4) * 1 + 1 * (y 0).val; omega
  | ⟨1, _⟩ => show win0_6.index t (1 : Fin 4) * 16 + 1 * (y 1).val = win0_8.index t (1 : Fin 4) * 16 + 1 * (y 1).val; omega
  | ⟨2, _⟩ => show win0_6.index t (2 : Fin 4) * 256 + 1 * (y 2).val = win0_8.index t (2 : Fin 4) * 256 + 1 * (y 2).val; omega
  | ⟨3, _⟩ => show win0_6.index t (3 : Fin 4) * 32 + 1 * (y 3).val = win0_8.index t (3 : Fin 4) * 32 + 1 * (y 3).val; omega
/-- Corner block 7 at (z, r, s, ch) is its array at the result position. -/
theorem cblk7 (c : Dev nD) (t : Fin cfg0.N) (y : S1x16x256x32.Idx) :
    iblk m c 7 t y = V m c main_v109 (((cfg0.win 8).blk t).view.emb y) := by
  obtain ⟨e0, e1, e2, e3⟩ := idx_w7 t
  show V m c main_v109 (((cfg0.win 7).blk t).view.emb y) = V m c main_v109 (((cfg0.win 8).blk t).view.emb y)
  refine congrArg _ (funext fun a => Fin.ext ?_)
  match a with
  | ⟨0, _⟩ => show win0_7.index t (0 : Fin 4) * 1 + 1 * (y 0).val = win0_8.index t (0 : Fin 4) * 1 + 1 * (y 0).val; omega
  | ⟨1, _⟩ => show win0_7.index t (1 : Fin 4) * 16 + 1 * (y 1).val = win0_8.index t (1 : Fin 4) * 16 + 1 * (y 1).val; omega
  | ⟨2, _⟩ => show win0_7.index t (2 : Fin 4) * 256 + 1 * (y 2).val = win0_8.index t (2 : Fin 4) * 256 + 1 * (y 2).val; omega
  | ⟨3, _⟩ => show win0_7.index t (3 : Fin 4) * 32 + 1 * (y 3).val = win0_8.index t (3 : Fin 4) * 32 + 1 * (y 3).val; omega

/-! ## The blocks tile the result -/

/-- A position of the array is in point `t`'s block iff each coordinate is in the block's range. -/
theorem mem_blk (t : Fin cfg0.N) (i : S16x256x256x32.Idx) :
    i ∈ ((cfg0.win 8).blk t).view.set ↔ ∀ a : Fin 4, win0_8.index t a * S1x16x256x32.size a ≤ (i a).val ∧ (i a).val < win0_8.index t a * S1x16x256x32.size a + S1x16x256x32.size a := by
  show i ∈ ((View.whole main_v126).slice (win0_8.rect t)).set ↔ _
  rw [View.set_slice_whole, Rect.mem_set_unit]
  exact Iff.rfl

/-- The blocks tile the result: position (b, y, x, ch) is in the block of the point (b, y / 16). -/
theorem cover (i : S16x256x256x32.Idx) : ∃ t : Fin cfg0.N, (cfg0.win 8).flush t = true ∧ i ∈ ((cfg0.win 8).blk t).view.set := by
  have hi0 : (i 0).val < 16 := (i 0).isLt
  have hi1 : (i 1).val < 256 := (i 1).isLt
  have hi2 : (i 2).val < 256 := (i 2).isLt
  have hi3 : (i 3).val < 32 := (i 3).isLt
  obtain ⟨t, ht⟩ := idx_onto ⟨(i 0).val, hi0⟩ ⟨(i 1).val / 16, by omega⟩
  have q0 : win0_8.index t (0 : Fin 4) = (i 0).val := congrFun ht 0
  have q1 : win0_8.index t (1 : Fin 4) = (i 1).val / 16 := congrFun ht 1
  have q2 : win0_8.index t (2 : Fin 4) = 0 := congrFun ht 2
  have q3 : win0_8.index t (3 : Fin 4) = 0 := congrFun ht 3
  refine ⟨t, flush0_8 t, ?_⟩
  rw [mem_blk]
  intro a
  match a with
  | ⟨0, _⟩ => show win0_8.index t (0 : Fin 4) * 1 ≤ (i 0).val ∧ (i 0).val < win0_8.index t (0 : Fin 4) * 1 + 1; omega
  | ⟨1, _⟩ => show win0_8.index t (1 : Fin 4) * 16 ≤ (i 1).val ∧ (i 1).val < win0_8.index t (1 : Fin 4) * 16 + 16; omega
  | ⟨2, _⟩ => show win0_8.index t (2 : Fin 4) * 256 ≤ (i 2).val ∧ (i 2).val < win0_8.index t (2 : Fin 4) * 256 + 256; omega
  | ⟨3, _⟩ => show win0_8.index t (3 : Fin 4) * 32 ≤ (i 3).val ∧ (i 3).val < win0_8.index t (3 : Fin 4) * 32 + 32; omega

end Cert.KernelIdeal.Point

end
-- ==== Proof.LibHostNary3.lean ====
/-
  A host operation with three operands given as a literal family of references (a concatenation of three arrays):
  its result, with each operand's contents read at its own reference.

  The general statement reads the operands as `fun k => F (ref (xs k))`, under a binder, where the reference
  `xs k` is no literal; for a literal family `![x, a, b]` the three contents can be named one by one, which lets the
  per-operation result lemmas go on rewriting inside them.
-/
import Idealize.ShloMosaic.Lib.StableHlo.Run

noncomputable section

namespace Idealize.ShloMosaic.StableHlo

variable {τ : Topo} {sig : RefSig} {Val : EltTy → Type}
variable {x a b y : Ref sig .tc}

/-- The result of an operation of three operands `![x, a, b]` at its own result buffer is its function of the three
    operands' contents, each read at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Idealize.ShloMosaic.StableHlo

end
-- ==== Proof.HostNary3Simp.lean ====
/-
  The three-operand host operation's result, in the form a single simplification pass can use: the result
  reference is matched up to reducible unfolding, as for the operations of fewer operands.
-/
import proofs.«122729_j18837726560482_2_alg».proof.Proof.LibHostNary3

noncomputable section

namespace Idealize.ShloMosaic.StableHlo

variable {τ : Topo} {sig : RefSig} {Val : EltTy → Type}
variable {x a b y : Ref sig .tc}

/-- The result of an operation of three operands `![x, a, b]` at its own result buffer, each operand's contents read at
    its own reference. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- The host operations' results by one simplification pass, the three-operand operation's operands included. -/
macro "after_results_simp3" : tactic =>
  `(tactic| (simp (disch := decide) only [after_cons, after_nil,
      nullary_result', unary_result', binary_result', ternary_result', quaternary_result', reshape_result', nary4_result', nary3_result', nary_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo

end
-- ==== Proof.KernelIdealWeights.lean ====
/-
  The four bilinear weight arrays the grid is handed are the reference's.

  The program before its grid and the reference compute these arrays by the same line of elementwise operations,
  clippings and corner gathers of the same three arguments; the reference's values are named stage by stage, so each
  array the grid is handed is a named stage of the reference evaluated at the program's own arguments.
-/
import proofs.«122729_j18837726560482_2_alg».proof.Proof.KernelIdealFrame
import proofs.«122729_j18837726560482_2_alg».proof.Proof.RefRead
import proofs.«122729_j18837726560482_2_alg».proof.Proof.HostNary3Simp

noncomputable section

namespace Cert.KernelIdeal.HostWeights

open Cert.KernelIdeal Cert.KernelIdeal.Gen Cert.KernelIdeal.Fr
open Idealize.ShloMosaic Idealize.ShloMosaic.TcCoe Idealize.SL.Sem Idealize.ShloMosaic.StableHlo

variable {F : FTy → Type} [FloatOps F]
variable (m : (ℓ : Loc nD τ sig) → Buf (Elt F) ℓ)

set_option maxRecDepth 16384 in
set_option maxHeartbeats 0 in
/-- The first weight array, (x1 - x)·(y1 - y), is the reference's. -/
theorem V_main_v116 (c : Dev nD) :
    V m c main_v116 = Cert.ReferenceIdeal.ReadP.val_main_v116 (F := F) (m ((c : Thread nD τ).loc main_arg1)) (m ((c : Thread nD τ).loc main_arg2)) := by
  show StableHlo.after (List.flatten [hostOps0, hostOps0_1, hostOps0_2, hostOps0_3, hostOps0_4, hostOps0_5, hostOps0_6, hostOps0_7, hostOps0_8]) (fun b => m (c, b)) (Proc.devRef .tc main_v116) = _
  simp only [hostOps0, hostOps0_1, hostOps0_2, hostOps0_3, hostOps0_4, hostOps0_5, hostOps0_6, hostOps0_7, hostOps0_8, List.flatten_cons, List.flatten_nil, List.append_nil, List.cons_append, List.nil_append]
  simp (disch := decide) only [after_cons, after_nil,
      nullary_result', unary_result', binary_result', ternary_result', nary3_result', nary_result',
      nullary_result_ne', unary_result_ne', binary_result_ne', ternary_result_ne', nary_result_ne']
  rfl

set_option maxRecDepth 16384 in
set_option maxHeartbeats 0 in
/-- The second weight array, (x1 - x)·(y - y0), is the reference's. -/
theorem V_main_v119 (c : Dev nD) :
    V m c main_v119 = Cert.ReferenceIdeal.ReadP.val_main_v120 (F := F) (m ((c : Thread nD τ).loc main_arg1)) (m ((c : Thread nD τ).loc main_arg2)) := by
  show StableHlo.after (List.flatten [hostOps0, hostOps0_1, hostOps0_2, hostOps0_3, hostOps0_4, hostOps0_5, hostOps0_6, hostOps0_7, hostOps0_8]) (fun b => m (c, b)) (Proc.devRef .tc main_v119) = _
  simp only [hostOps0, hostOps0_1, hostOps0_2, hostOps0_3, hostOps0_4, hostOps0_5, hostOps0_6, hostOps0_7, hostOps0_8, List.flatten_cons, List.flatten_nil, List.append_nil, List.cons_append, List.nil_append]
  simp (disch := decide) only [after_cons, after_nil,
      nullary_result', unary_result', binary_result', ternary_result', nary3_result', nary_result',
      nullary_result_ne', unary_result_ne', binary_result_ne', ternary_result_ne', nary_result_ne']
  rfl

set_option maxRecDepth 16384 in
set_option maxHeartbeats 0 in
/-- The third weight array, (x - x0)·(y1 - y), is the reference's. -/
theorem V_main_v122 (c : Dev nD) :
    V m c main_v122 = Cert.ReferenceIdeal.ReadP.val_main_v124 (F := F) (m ((c : Thread nD τ).loc main_arg1)) (m ((c : Thread nD τ).loc main_arg2)) := by
  show StableHlo.after (List.flatten [hostOps0, hostOps0_1, hostOps0_2, hostOps0_3, hostOps0_4, hostOps0_5, hostOps0_6, hostOps0_7, hostOps0_8]) (fun b => m (c, b)) (Proc.devRef .tc main_v122) = _
  simp only [hostOps0, hostOps0_1, hostOps0_2, hostOps0_3, hostOps0_4, hostOps0_5, hostOps0_6, hostOps0_7, hostOps0_8, List.flatten_cons, List.flatten_nil, List.append_nil, List.cons_append, List.nil_append]
  simp (disch := decide) only [after_cons, after_nil,
      nullary_result', unary_result', binary_result', ternary_result', nary3_result', nary_result',
      nullary_result_ne', unary_result_ne', binary_result_ne', ternary_result_ne', nary_result_ne']
  rfl

set_option maxRecDepth 16384 in
set_option maxHeartbeats 0 in
/-- The fourth weight array, (x - x0)·(y - y0), is the reference's. -/
theorem V_main_v125 (c : Dev nD) :
    V m c main_v125 = Cert.ReferenceIdeal.ReadP.val_main_v128 (F := F) (m ((c : Thread nD τ).loc main_arg1)) (m ((c : Thread nD τ).loc main_arg2)) := by
  show StableHlo.after (List.flatten [hostOps0, hostOps0_1, hostOps0_2, hostOps0_3, hostOps0_4, hostOps0_5, hostOps0_6, hostOps0_7, hostOps0_8]) (fun b => m (c, b)) (Proc.devRef .tc main_v125) = _
  simp only [hostOps0, hostOps0_1, hostOps0_2, hostOps0_3, hostOps0_4, hostOps0_5, hostOps0_6, hostOps0_7, hostOps0_8, List.flatten_cons, List.flatten_nil, List.append_nil, List.cons_append, List.nil_append]
  simp (disch := decide) only [after_cons, after_nil,
      nullary_result', unary_result', binary_result', ternary_result', nary3_result', nary_result',
      nullary_result_ne', unary_result_ne', binary_result_ne', ternary_result_ne', nary_result_ne']
  rfl

end Cert.KernelIdeal.HostWeights

end
-- ==== Proof.KernelIdealCat3.lean ====
/-
  The index arrays of the four corner gathers.

  Each corner of the bilinear sample is gathered at a triple (batch, row, column) of integer coordinates. The program
  holds the three coordinate arrays with a trailing axis of one and sets them side by side along that axis. This module
  names that operation as a function of its three operands, and states, for each of the four places where the program
  does it, that the array written is that function of the three operands' contents, each read at its own buffer.
  Stated this way the value of an operand can be followed further back through the operations that computed it.
-/
import proofs.«122729_j18837726560482_2_alg».proof.Proof.Gen.KernelIdeal
import Idealize.ShloMosaic.Lib.StableHlo.Run

noncomputable section

namespace Cert.KernelIdeal.Cat3

open Cert.KernelIdeal Cert.KernelIdeal.Gen Idealize.ShloMosaic Idealize.ShloMosaic.TcCoe Idealize.SL.Sem Idealize.ShloMosaic.StableHlo

variable {F : FTy → Type} [FloatOps F]

/-- Three index arrays with a trailing axis of one, side by side along that axis. -/
def cat3 (p q r : (⟨S16x256x256x1, .i32⟩ : BufTy).Contents (Elt F)) : (⟨S16x256x256x3, .i32⟩ : BufTy).Contents (Elt F) :=
  concatenate S16x256x256x3 3 [⟨S16x256x256x1, p⟩, ⟨S16x256x256x1, q⟩, ⟨S16x256x256x1, r⟩] concatenates_S16x256x256x1_S16x256x256x1_S16x256x256x1_S16x256x256x3_d3

/-- The concatenation written to `main_v45`: its value is the three operands' contents, each read at its own buffer, side by side. -/
theorem cat_v45 (hxs hy) (V : Valuation τ sig (Elt F)) :
    (nary (τ := τ) ![main_v42, main_v43, main_v44] main_v45 (fun u => concatenate S16x256x256x3 3 [⟨S16x256x256x1, u 0⟩, ⟨S16x256x256x1, u 1⟩, ⟨S16x256x256x1, u 2⟩] concatenates_S16x256x256x1_S16x256x256x1_S16x256x256x1_S16x256x256x3_d3) hxs hy).result V (no_index (Proc.devRef .tc main_v45))
      = cat3 (V (Proc.devRef .tc main_v42)) (V (Proc.devRef .tc main_v43)) (V (Proc.devRef .tc main_v44)) :=
  nary_result _ _ _ hxs hy V

/-- The concatenation written to `main_v66`: its value is the three operands' contents, each read at its own buffer, side by side. -/
theorem cat_v66 (hxs hy) (V : Valuation τ sig (Elt F)) :
    (nary (τ := τ) ![main_v63, main_v64, main_v65] main_v66 (fun u => concatenate S16x256x256x3 3 [⟨S16x256x256x1, u 0⟩, ⟨S16x256x256x1, u 1⟩, ⟨S16x256x256x1, u 2⟩] concatenates_S16x256x256x1_S16x256x256x1_S16x256x256x1_S16x256x256x3_d3) hxs hy).result V (no_index (Proc.devRef .tc main_v66))
      = cat3 (V (Proc.devRef .tc main_v63)) (V (Proc.devRef .tc main_v64)) (V (Proc.devRef .tc main_v65)) :=
  nary_result _ _ _ hxs hy V

/-- The concatenation written to `main_v87`: its value is the three operands' contents, each read at its own buffer, side by side. -/
theorem cat_v87 (hxs hy) (V : Valuation τ sig (Elt F)) :
    (nary (τ := τ) ![main_v84, main_v85, main_v86] main_v87 (fun u => concatenate S16x256x256x3 3 [⟨S16x256x256x1, u 0⟩, ⟨S16x256x256x1, u 1⟩, ⟨S16x256x256x1, u 2⟩] concatenates_S16x256x256x1_S16x256x256x1_S16x256x256x1_S16x256x256x3_d3) hxs hy).result V (no_index (Proc.devRef .tc main_v87))
      = cat3 (V (Proc.devRef .tc main_v84)) (V (Proc.devRef .tc main_v85)) (V (Proc.devRef .tc main_v86)) :=
  nary_result _ _ _ hxs hy V

/-- The concatenation written to `main_v108`: its value is the three operands' contents, each read at its own buffer, side by side. -/
theorem cat_v108 (hxs hy) (V : Valuation τ sig (Elt F)) :
    (nary (τ := τ) ![main_v105, main_v106, main_v107] main_v108 (fun u => concatenate S16x256x256x3 3 [⟨S16x256x256x1, u 0⟩, ⟨S16x256x256x1, u 1⟩, ⟨S16x256x256x1, u 2⟩] concatenates_S16x256x256x1_S16x256x256x1_S16x256x256x1_S16x256x256x3_d3) hxs hy).result V (no_index (Proc.devRef .tc main_v108))
      = cat3 (V (Proc.devRef .tc main_v105)) (V (Proc.devRef .tc main_v106)) (V (Proc.devRef .tc main_v107)) :=
  nary_result _ _ _ hxs hy V

end Cert.KernelIdeal.Cat3

end
-- ==== Proof.KernelIdealCorners.lean ====
/-
  The four gathered corner arrays the grid is handed are the reference's.

  The program before its grid and the reference compute these arrays by the same line of elementwise operations,
  clippings and corner gathers of the same three arguments; the reference's values are named stage by stage, so each
  array the grid is handed is a named stage of the reference evaluated at the program's own arguments.
-/
import proofs.«122729_j18837726560482_2_alg».proof.Proof.KernelIdealFrame
import proofs.«122729_j18837726560482_2_alg».proof.Proof.RefRead
import proofs.«122729_j18837726560482_2_alg».proof.Proof.KernelIdealCat3

noncomputable section

namespace Cert.KernelIdeal.HostCorners

open Cert.KernelIdeal Cert.KernelIdeal.Gen Cert.KernelIdeal.Fr
open Idealize.ShloMosaic Idealize.ShloMosaic.TcCoe Idealize.SL.Sem Idealize.ShloMosaic.StableHlo

variable {F : FTy → Type} [FloatOps F]
variable (m : (ℓ : Loc nD τ sig) → Buf (Elt F) ℓ)

set_option maxRecDepth 16384 in
set_option maxHeartbeats 0 in
/-- The top-left corner array is the reference's. -/
theorem V_main_v46 (c : Dev nD) :
    V m c main_v46 = Cert.ReferenceIdeal.ReadP.val_main_v46 (F := F) (m ((c : Thread nD τ).loc main_arg0)) (m ((c : Thread nD τ).loc main_arg1)) (m ((c : Thread nD τ).loc main_arg2)) := by
  show StableHlo.after (List.flatten [hostOps0, hostOps0_1, hostOps0_2, hostOps0_3, hostOps0_4, hostOps0_5, hostOps0_6, hostOps0_7, hostOps0_8]) (fun b => m (c, b)) (Proc.devRef .tc main_v46) = _
  simp only [hostOps0, hostOps0_1, hostOps0_2, hostOps0_3, hostOps0_4, hostOps0_5, hostOps0_6, hostOps0_7, hostOps0_8, List.flatten_cons, List.flatten_nil, List.append_nil, List.cons_append, List.nil_append]
  simp (disch := decide) only [after_cons, after_nil,
      nullary_result', unary_result', binary_result', ternary_result', Cat3.cat_v45, Cat3.cat_v66, Cat3.cat_v87, Cat3.cat_v108,
      nullary_result_ne', unary_result_ne', binary_result_ne', ternary_result_ne', nary_result_ne']
  rfl

set_option maxRecDepth 16384 in
set_option maxHeartbeats 0 in
/-- The bottom-left corner array is the reference's. -/
theorem V_main_v67 (c : Dev nD) :
    V m c main_v67 = Cert.ReferenceIdeal.ReadP.val_main_v67 (F := F) (m ((c : Thread nD τ).loc main_arg0)) (m ((c : Thread nD τ).loc main_arg1)) (m ((c : Thread nD τ).loc main_arg2)) := by
  show StableHlo.after (List.flatten [hostOps0, hostOps0_1, hostOps0_2, hostOps0_3, hostOps0_4, hostOps0_5, hostOps0_6, hostOps0_7, hostOps0_8]) (fun b => m (c, b)) (Proc.devRef .tc main_v67) = _
  simp only [hostOps0, hostOps0_1, hostOps0_2, hostOps0_3, hostOps0_4, hostOps0_5, hostOps0_6, hostOps0_7, hostOps0_8, List.flatten_cons, List.flatten_nil, List.append_nil, List.cons_append, List.nil_append]
  simp (disch := decide) only [after_cons, after_nil,
      nullary_result', unary_result', binary_result', ternary_result', Cat3.cat_v45, Cat3.cat_v66, Cat3.cat_v87, Cat3.cat_v108,
      nullary_result_ne', unary_result_ne', binary_result_ne', ternary_result_ne', nary_result_ne']
  rfl

set_option maxRecDepth 16384 in
set_option maxHeartbeats 0 in
/-- The top-right corner array is the reference's. -/
theorem V_main_v88 (c : Dev nD) :
    V m c main_v88 = Cert.ReferenceIdeal.ReadP.val_main_v88 (F := F) (m ((c : Thread nD τ).loc main_arg0)) (m ((c : Thread nD τ).loc main_arg1)) (m ((c : Thread nD τ).loc main_arg2)) := by
  show StableHlo.after (List.flatten [hostOps0, hostOps0_1, hostOps0_2, hostOps0_3, hostOps0_4, hostOps0_5, hostOps0_6, hostOps0_7, hostOps0_8]) (fun b => m (c, b)) (Proc.devRef .tc main_v88) = _
  simp only [hostOps0, hostOps0_1, hostOps0_2, hostOps0_3, hostOps0_4, hostOps0_5, hostOps0_6, hostOps0_7, hostOps0_8, List.flatten_cons, List.flatten_nil, List.append_nil, List.cons_append, List.nil_append]
  simp (disch := decide) only [after_cons, after_nil,
      nullary_result', unary_result', binary_result', ternary_result', Cat3.cat_v45, Cat3.cat_v66, Cat3.cat_v87, Cat3.cat_v108,
      nullary_result_ne', unary_result_ne', binary_result_ne', ternary_result_ne', nary_result_ne']
  rfl

set_option maxRecDepth 16384 in
set_option maxHeartbeats 0 in
/-- The bottom-right corner array is the reference's. -/
theorem V_main_v109 (c : Dev nD) :
    V m c main_v109 = Cert.ReferenceIdeal.ReadP.val_main_v109 (F := F) (m ((c : Thread nD τ).loc main_arg0)) (m ((c : Thread nD τ).loc main_arg1)) (m ((c : Thread nD τ).loc main_arg2)) := by
  show StableHlo.after (List.flatten [hostOps0, hostOps0_1, hostOps0_2, hostOps0_3, hostOps0_4, hostOps0_5, hostOps0_6, hostOps0_7, hostOps0_8]) (fun b => m (c, b)) (Proc.devRef .tc main_v109) = _
  simp only [hostOps0, hostOps0_1, hostOps0_2, hostOps0_3, hostOps0_4, hostOps0_5, hostOps0_6, hostOps0_7, hostOps0_8, List.flatten_cons, List.flatten_nil, List.append_nil, List.cons_append, List.nil_append]
  simp (disch := decide) only [after_cons, after_nil,
      nullary_result', unary_result', binary_result', ternary_result', Cat3.cat_v45, Cat3.cat_v66, Cat3.cat_v87, Cat3.cat_v108,
      nullary_result_ne', unary_result_ne', binary_result_ne', ternary_result_ne', nary_result_ne']
  rfl

end Cert.KernelIdeal.HostCorners

end
-- ==== Proof.KernelIdealBlocks.lean ====
/-
  The result array of `KernelIdeal`, as one function of the three argument arrays.

  The grid's point (b, h) writes back the block [b, 16h .. 16h+15, :, :] of the result. At a position (r, s, ch) of
  that block the body stored
      wa[r, s] * Ia[r, s, ch] + wb[r, s] * Ib[r, s, ch] + wc[r, s] * Ic[r, s, ch] + wd[r, s] * Id[r, s, ch]
  of its eight input blocks (a weight block, viewed with a trailing axis of one and repeated along the channels, read at
  (r, s, ch) is the weight at (r, s)). The input blocks are the blocks [b, 16h .. 16h+15, …] of the weight and corner
  arrays, and those arrays are the reference's named stages of the same arguments; so what the point writes back is the
  block of the reference's last stage — the sum of the four weighted corners over the whole arrays — at the program's own
  arguments. The 256 blocks tile the result, hence the result array IS that stage.
-/
import proofs.«122729_j18837726560482_2_alg».proof.Proof.KernelIdealFrame
import proofs.«122729_j18837726560482_2_alg».proof.Proof.KernelIdealPoint
import proofs.«122729_j18837726560482_2_alg».proof.Proof.KernelIdealWeights
import proofs.«122729_j18837726560482_2_alg».proof.Proof.KernelIdealCorners
import proofs.«122729_j18837726560482_2_alg».proof.Proof.RefRead
import Idealize.ShloMosaic.Lib.Pipeline.Value
import Idealize.ShloMosaic.Lib.ValueIdx

set_option maxRecDepth 16384

noncomputable section

namespace Cert.KernelIdeal.Blocks

open Cert.KernelIdeal Cert.KernelIdeal.Gen Cert.KernelIdeal.Fr Cert.KernelIdeal.Point
open Idealize.ShloMosaic Idealize.ShloMosaic.TcCoe Idealize.SL.Sem Idealize.ShloMosaic.ValueIdx
open Idealize.ShloMosaic.Pipeline (Dat)
open Cert.ReferenceIdeal.ReadP

variable {F : FTy → Type} [FloatOps F]
variable (m : (ℓ : Loc nD τ sig) → Buf (Elt F) ℓ) (ρ : Dev nD → PrngReg)

/-! ## The result array -/

/-- The reference's last stage — the sum of the four weighted corner arrays — at the program's own arguments. -/
def G (c : Dev nD) : S16x256x256x32.Idx → Elt F .f32 :=
  val_main_v140 (F := F) (m ((c : Thread nD τ).loc main_arg0)) (m ((c : Thread nD τ).loc main_arg1)) (m ((c : Thread nD τ).loc main_arg2))

/-- That stage at a position: the four corner stages there, each times its weight stage at the first three coordinates. -/
theorem G_apply (c : Dev nD) (i : S16x256x256x32.Idx) :
    G m c i = FloatOps.addf (FloatOps.addf (FloatOps.addf
        (FloatOps.mulf (val_main_v116 (F := F) (m ((c : Thread nD τ).loc main_arg1)) (m ((c : Thread nD τ).loc main_arg2)) (idx_main_v117 (idx_main_v130 i)))
          (val_main_v46 (F := F) (m ((c : Thread nD τ).loc main_arg0)) (m ((c : Thread nD τ).loc main_arg1)) (m ((c : Thread nD τ).loc main_arg2)) i))
        (FloatOps.mulf (val_main_v120 (F := F) (m ((c : Thread nD τ).loc main_arg1)) (m ((c : Thread nD τ).loc main_arg2)) (idx_main_v121 (idx_main_v132 i)))
          (val_main_v67 (F := F) (m ((c : Thread nD τ).loc main_arg0)) (m ((c : Thread nD τ).loc main_arg1)) (m ((c : Thread nD τ).loc main_arg2)) i)))
        (FloatOps.mulf (val_main_v124 (F := F) (m ((c : Thread nD τ).loc main_arg1)) (m ((c : Thread nD τ).loc main_arg2)) (idx_main_v125 (idx_main_v135 i)))
          (val_main_v88 (F := F) (m ((c : Thread nD τ).loc main_arg0)) (m ((c : Thread nD τ).loc main_arg1)) (m ((c : Thread nD τ).loc main_arg2)) i)))
        (FloatOps.mulf (val_main_v128 (F := F) (m ((c : Thread nD τ).loc main_arg1)) (m ((c : Thread nD τ).loc main_arg2)) (idx_main_v129 (idx_main_v138 i)))
          (val_main_v109 (F := F) (m ((c : Thread nD τ).loc main_arg0)) (m ((c : Thread nD τ).loc main_arg1)) (m ((c : Thread nD τ).loc main_arg2)) i)) := by
  unfold G
  rw [val_main_v140_apply, val_main_v137_apply, val_main_v134_apply, val_main_v131_apply, val_main_v133_apply, val_main_v136_apply, val_main_v139_apply,
    val_main_v130_apply, val_main_v117_apply, val_main_v132_apply, val_main_v121_apply, val_main_v135_apply, val_main_v125_apply, val_main_v138_apply, val_main_v129_apply]

/-- What the body leaves at a position of the block of point `t` is the stage at the position's place in the array. -/
theorem point_eq (c : Dev nD) (t : Fin cfg0.N) (y : S1x16x256x32.Idx) :
    k0_pay1 (k0_pay2 (iblk m c 0 t) (iblk m c 1 t) (iblk m c 2 t) (iblk m c 4 t) (iblk m c 5 t) (iblk m c 6 t)) (k0_pay3 (iblk m c 3 t) (iblk m c 7 t)) y
      = G m c (((cfg0.win 8).blk t).view.emb y) := by
  obtain ⟨z, r, s, ch, rfl⟩ : ∃ (z : Fin 1) (r : Fin 16) (s : Fin 256) (ch : Fin 32), y = ix4 z r s ch := ⟨y 0, y 1, y 2, y 3, eq_ix4 y⟩
  refine (body_apply (iblk m c 0 t) (iblk m c 1 t) (iblk m c 2 t) (iblk m c 3 t) (iblk m c 4 t) (iblk m c 5 t) (iblk m c 6 t) (iblk m c 7 t) z r s ch).trans ?_
  rw [G_apply, cblk4 m c t, cblk5 m c t, cblk6 m c t, cblk7 m c t,
    wblk0 m c t z r s ch (idx_main_v117 (idx_main_v130 (((cfg0.win 8).blk t).view.emb (ix4 z r s ch)))) rfl rfl rfl,
    wblk1 m c t z r s ch (idx_main_v121 (idx_main_v132 (((cfg0.win 8).blk t).view.emb (ix4 z r s ch)))) rfl rfl rfl,
    wblk2 m c t z r s ch (idx_main_v125 (idx_main_v135 (((cfg0.win 8).blk t).view.emb (ix4 z r s ch)))) rfl rfl rfl,
    wblk3 m c t z r s ch (idx_main_v129 (idx_main_v138 (((cfg0.win 8).blk t).view.emb (ix4 z r s ch)))) rfl rfl rfl,
    Cert.KernelIdeal.HostWeights.V_main_v116, Cert.KernelIdeal.HostWeights.V_main_v119, Cert.KernelIdeal.HostWeights.V_main_v122, Cert.KernelIdeal.HostWeights.V_main_v125,
    Cert.KernelIdeal.HostCorners.V_main_v46, Cert.KernelIdeal.HostCorners.V_main_v67, Cert.KernelIdeal.HostCorners.V_main_v88, Cert.KernelIdeal.HostCorners.V_main_v109]

/-- What point `t` writes back is the block of the stage. -/
theorem flushed_eq (c : Dev nD) (t : Fin cfg0.N) :
    (dats m 0 c).flushed 8 t = ((cfg0.win 8).blk t).view.read (Elt F) (G m c) := by
  show (cfg0.win 8).cut (grid0.coords t) ((dats m 0 c).after 8 t) = _
  rw [after_8]
  unfold blockOut
  rw [View.canon_unit_zero hz4]
  simp only [View.ld_unit_zero (S := S1x16x256) hz3, View.ld_unit_zero (S := S1x16x256x32) hz4]
  funext y
  exact point_eq m c t y

/-- The result array after the grid is the stage. -/
theorem final (c : Dev nD) : (dats m 0 c).arrAt 8 cfg0.N = G m c :=
  (dats m 0 c).arrAt_eq_of_cover 8 (G m c) (fun t _ => flushed_eq m c t) cover

/-- Every weakly fair execution of the program terminates with the result array at the stage of the program's arguments,
    the arguments as launched. -/
theorem run : θ_run defs (onTc (τ := τ) (main (F := F))) ⟨m, fun _ => 0, ρ⟩ fun r => ∀ c : Dev nD,
      r.2.mem ((c : Thread nD τ).loc main_v126) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 8).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.KernelIdeal.Blocks

end
-- ==== Proof.lean ====
/-
  Bilinear sampling: the program computes, on the host, the pixel coordinates of each sampling position, their floors and
  clipped neighbours, the four corner gathers of the image and the four bilinear weights, and then combines them on a
  16 x 16 grid, each point producing the block [b, 16h .. 16h+15, :, :] of
      wa * Ia + wb * Ib + wc * Ic + wd * Id.
  The reference computes the same weights and corners by the same host operations and combines the whole arrays at once.

  The two idealized programs therefore agree with no algebra at all: the weight and corner arrays the grid is handed ARE
  the reference's named stages of the same arguments, a block of the grid's result is the block of the reference's last
  stage, and the 256 blocks tile the result. Nothing is rounded differently, no sum is regrouped, and the finiteness of
  the inputs is not used.

  The three programs run to the end with their arguments unchanged: the two kernels' runs are the launch of the grid after
  the host operations, the body's triple at every point; the reference's run is its list of host operations.
-/
import proofs.«122729_j18837726560482_2_alg».proof.Defs
import proofs.«122729_j18837726560482_2_alg».proof.Proof.Gen.Kernel
import proofs.«122729_j18837726560482_2_alg».proof.Proof.Gen.KernelIdeal
import proofs.«122729_j18837726560482_2_alg».proof.Proof.Gen.ReferenceIdeal
import proofs.«122729_j18837726560482_2_alg».proof.Proof.Gen.Pre_finite_inputs
import proofs.«122729_j18837726560482_2_alg».proof.Proof.RefRun
import proofs.«122729_j18837726560482_2_alg».proof.Proof.RefRead
import proofs.«122729_j18837726560482_2_alg».proof.Proof.RefBridge
import proofs.«122729_j18837726560482_2_alg».proof.Proof.KernelFrame
import proofs.«122729_j18837726560482_2_alg».proof.Proof.KernelIdealFrame
import proofs.«122729_j18837726560482_2_alg».proof.Proof.KernelIdealBlocks
import Idealize.ShloMosaic.Adequacy
import Idealize.ShloMosaic.Init

noncomputable section

namespace Cert.Proof

open Idealize.ShloMosaic Idealize.SL.Sem

/-- The word-level program terminates with its arguments as launched. -/
theorem frame_kernel : Cert.frame_Kernel (hKernel := Cert.Kernel.Gen.facts) (hPre_finite_inputs := Cert.Pre_finite_inputs.Gen.facts) :=
  fun m ρ _ => Cert.Kernel.Fr.frame m ρ

/-- So does the idealized program. -/
theorem frame_kernelIdeal : Cert.frame_KernelIdeal (hKernelIdeal := Cert.KernelIdeal.Gen.facts) (hPre_finite_inputs := Cert.Pre_finite_inputs.Gen.facts) :=
  fun m ρ _ => Cert.KernelIdeal.Fr.frame m ρ

/-- The reference is a list of host operations: it terminates with its arguments as launched. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- From memories that agree on the arguments both idealized programs end with the reference's last stage of those
    arguments: the sum of the four weighted corners. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Blocks.G (F := Ideal) m c, Cert.KernelIdeal.Blocks.run (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v140_eq, (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
